-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 85
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S100000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x2, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x2, .f32⟩
  | .hbm, ⟨76, _⟩ => ⟨S3300000x1, .f32⟩
  | .hbm, ⟨77, _⟩ => ⟨S3300000x2, .f32⟩
  | .hbm, ⟨78, _⟩ => ⟨S3300000x2, .f32⟩
  | .hbm, ⟨79, _⟩ => ⟨S_, .f32⟩
  | .hbm, ⟨80, _⟩ => ⟨S100000x2, .f32⟩
  | .hbm, ⟨81, _⟩ => ⟨S3300000x1, .i32⟩
  | .hbm, ⟨82, _⟩ => ⟨S100000x2, .f32⟩
  | .hbm, ⟨83, _⟩ => ⟨S1x2, .f32⟩
  | .hbm, ⟨84, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S100000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x2, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x2, .f32⟩
  | .hbm, ⟨80, _⟩ => ⟨S3300000x1, .f32⟩
  | .hbm, ⟨81, _⟩ => ⟨S3300000x2, .f32⟩
  | .hbm, ⟨82, _⟩ => ⟨S3300000x2, .f32⟩
  | .hbm, ⟨83, _⟩ => ⟨S_, .f32⟩
  | .hbm, ⟨84, _⟩ => ⟨S100000x2, .f32⟩
  | .hbm, ⟨85, _⟩ => ⟨S3300000x1, .i32⟩
  | .hbm, ⟨86, _⟩ => ⟨S100000x2, .f32⟩
  | .hbm, ⟨87, _⟩ => ⟨S1x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x2, .f32⟩
  | .hbm, ⟨97, _⟩ => ⟨S100000x2, .f32⟩
  | .hbm, ⟨98, _⟩ => ⟨S100000x2, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S100000x2, .f32⟩
  | .hbm, ⟨104, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_call2_cst_0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_cst_1 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_v66 : Ref sig .tc := ⟨.hbm, 104, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.RefChain.lean ====
/-
  The reference program's composed term, cut into the stages the proof speaks about. Each definition below is the
  text of the program's own host operations for that stage, applied to the stage's inputs:

    rowList e, colList e     the edge list's two rows, each followed by 0 … 99999 (the self loops)
    degOf, degPositive, degIsqrt, whereSel, normFrom   the pieces normOf is made of
    normOf r c               the per-edge normalisation: deg^(-1/2) at the edge's row node times deg^(-1/2) at its column
                             node, deg the count of edges per row node, 0 where a node has none
    aggregate16 r c n h      gather the rows of h at the column nodes, scale by n, add them up at the row nodes (16 wide)
    aggregate2 r c n h       the same, 2 wide
    product16 x w, product2 h w   the two layers' matrix products on the host
    biasRectify a b          a + b along the rows, then max with 0
    biasLogSoftmax a b       a + b along the rows, then the logarithm of the softmax along each row

  Nothing is proved about the first five: both programs apply them, so the proof only ever needs that equal inputs give
  equal outputs. The idealized kernel's host stretches are the same text over its own copies of the shapes and of the
  gather and scatter dimension records, which are equal to these by unfolding.
-/
import proofs.«156108_j35880156790911_1_alg».proof.Proof.Gen.ReferenceIdeal

noncomputable section

namespace Cert.ReferenceIdeal.Chain

open Cert.ReferenceIdeal Cert.ReferenceIdeal.Gen Idealize.ShloMosaic Idealize.SL.Sem

variable {F : FTy → Type} [FloatOps F]

/-- The first row of the edge list (the edges' row nodes), followed by the nodes themselves. -/
def rowList (e : (⟨S2x3200000, .i32⟩ : BufTy).Contents (Elt F)) : (⟨S3300000, .i32⟩ : BufTy).Contents (Elt F) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The second row of the edge list (the edges' column nodes), followed by the nodes themselves. -/
def colList (e : (⟨S2x3200000, .i32⟩ : BufTy).Contents (Elt F)) : (⟨S3300000, .i32⟩ : BufTy).Contents (Elt F) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- The per-edge normalisation from the two node lists. -/
def normOf (r cl : (⟨S3300000, .i32⟩ : BufTy).Contents (Elt F)) : (⟨S3300000, .f32⟩ : BufTy).Contents (Elt F) :=
  (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 r) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 r) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 r) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 r) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt cl (broadcastInDim S3300000 ![] bcast_S_S3300000 (constantI S_ 32 0#32))) (addi cl (broadcastInDim S3300000 ![] bcast_S_S3300000 (constantI S_ 32 100000#32))) cl))))

/-- The number of edges at each row node: ones added up at the row nodes. -/
def degOf (r : (⟨S3300000, .i32⟩ : BufTy).Contents (Elt F)) : (⟨S100000, .f32⟩ : BufTy).Contents (Elt F) :=
  (Host.scatterAdd scatter_S100000_S3300000x1_S3300000_n_0_0_1 (broadcastInDim S100000 ![] bcast_S_S100000 (constant S_ .f32 0x00000000#32)) (broadcastInDim S3300000x1 ![0] bcast_S3300000_S3300000x1_0 r) (broadcastInDim S3300000 ![] bcast_S_S3300000 (constant S_ .f32 0x3F800000#32)))

/-- Where a node has an edge at all. -/
def degPositive (r : (⟨S3300000, .i32⟩ : BufTy).Contents (Elt F)) : (⟨S100000, .i1⟩ : BufTy).Contents (Elt F) :=
  cmpf (F := F) .ogt (degOf r) (broadcastInDim S100000 ![] bcast_S_S100000 (constant S_ .f32 0x00000000#32))

/-- The reciprocal square root of the edge counts. -/
def degIsqrt (r : (⟨S3300000, .i32⟩ : BufTy).Contents (Elt F)) : (⟨S100000, .f32⟩ : BufTy).Contents (Elt F) :=
  Host.rsqrt (degOf r)

/-- A choice between an array's entries and one value: the array's entry where the condition holds, the value elsewhere. -/
def whereSel (p : (⟨S100000, .i1⟩ : BufTy).Contents (Elt F)) (v : (⟨S100000, .f32⟩ : BufTy).Contents (Elt F)) (z : (⟨S_, .f32⟩ : BufTy).Contents (Elt F)) : (⟨S100000, .f32⟩ : BufTy).Contents (Elt F) :=
  select p v (broadcastInDim S100000 ![] bcast_S_S100000 (id z))

/-- The per-edge normalisation from a per-node factor: the factor at the edge's row node times the factor at its column node. -/
def normFrom (x : (⟨S100000, .f32⟩ : BufTy).Contents (Elt F)) (r cl : (⟨S3300000, .i32⟩ : BufTy).Contents (Elt F)) : (⟨S3300000, .f32⟩ : BufTy).Contents (Elt F) :=
  (mulf (Host.gather gather_S100000_S3300000x1_S3300000_n_0_n_n_0_1_1 x (broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r))) (Host.gather gather_S100000_S3300000x1_S3300000_n_0_n_n_0_1_1 x (broadcastInDim S3300000x1 ![0] bcast_S3300000_S3300000x1_0 (select (cmpi .slt cl (broadcastInDim S3300000 ![] bcast_S_S3300000 (constantI S_ 32 0#32))) (addi cl (broadcastInDim S3300000 ![] bcast_S_S3300000 (constantI S_ 32 100000#32))) cl))))

/-- Gather at the column nodes, scale, and add up at the row nodes: 16 columns. -/
def aggregate16 (r cl : (⟨S3300000, .i32⟩ : BufTy).Contents (Elt F)) (n : (⟨S3300000, .f32⟩ : BufTy).Contents (Elt F)) (h : (⟨S100000x16, .f32⟩ : BufTy).Contents (Elt F)) : (⟨S100000x16, .f32⟩ : BufTy).Contents (Elt F) :=
  (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 r) (mulf (Host.gather gather_S100000x16_S3300000x1_S3300000x16_1_0_n_n_0_1_116 h (broadcastInDim S3300000x1 ![0] bcast_S3300000_S3300000x1_0 (select (cmpi .slt cl (broadcastInDim S3300000 ![] bcast_S_S3300000 (constantI S_ 32 0#32))) (addi cl (broadcastInDim S3300000 ![] bcast_S_S3300000 (constantI S_ 32 100000#32))) cl))) (broadcastInDim S3300000x16 ![0, 1] bcast_S3300000x1_S3300000x16_0_1 (broadcastInDim S3300000x1 ![0] bcast_S3300000_S3300000x1_0 n))))

/-- Gather at the column nodes, scale, and add up at the row nodes: 2 columns. -/
def aggregate2 (r cl : (⟨S3300000, .i32⟩ : BufTy).Contents (Elt F)) (n : (⟨S3300000, .f32⟩ : BufTy).Contents (Elt F)) (h : (⟨S100000x2, .f32⟩ : BufTy).Contents (Elt F)) : (⟨S100000x2, .f32⟩ : BufTy).Contents (Elt F) :=
  (Host.scatterAdd scatter_S100000x2_S3300000x1_S3300000x2_1_0_0_1 (broadcastInDim S100000x2 ![] bcast_S_S100000x2 (constant S_ .f32 0x00000000#32)) (broadcastInDim S3300000x1 ![0] bcast_S3300000_S3300000x1_0 r) (mulf (Host.gather gather_S100000x2_S3300000x1_S3300000x2_1_0_n_n_0_1_12 h (broadcastInDim S3300000x1 ![0] bcast_S3300000_S3300000x1_0 (select (cmpi .slt cl (broadcastInDim S3300000 ![] bcast_S_S3300000 (constantI S_ 32 0#32))) (addi cl (broadcastInDim S3300000 ![] bcast_S_S3300000 (constantI S_ 32 100000#32))) cl))) (broadcastInDim S3300000x2 ![0, 1] bcast_S3300000x1_S3300000x2_0_1 (broadcastInDim S3300000x1 ![0] bcast_S3300000_S3300000x1_0 n))))

/-- The first layer's product on the host. -/
def product16 (x : (⟨S100000x512, .f32⟩ : BufTy).Contents (Elt F)) (w : (⟨S512x16, .f32⟩ : BufTy).Contents (Elt F)) : (⟨S100000x16, .f32⟩ : BufTy).Contents (Elt F) :=
  Host.dotGeneral dot_S100000x512_S512x16_S100000x16_1_0_0_1_n_n none x w

/-- The second layer's product on the host. -/
def product2 (g : (⟨S100000x16, .f32⟩ : BufTy).Contents (Elt F)) (w : (⟨S16x2, .f32⟩ : BufTy).Contents (Elt F)) : (⟨S100000x2, .f32⟩ : BufTy).Contents (Elt F) :=
  Host.dotGeneral dot_S100000x16_S16x2_S100000x2_1_0_0_1_n_n none g w

/-- The bias laid along the rows and added, then the rectifier. -/
def biasRectify (a : (⟨S100000x16, .f32⟩ : BufTy).Contents (Elt F)) (b : (⟨S16, .f32⟩ : BufTy).Contents (Elt F)) : (⟨S100000x16, .f32⟩ : BufTy).Contents (Elt F) :=
  (maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32)))

/-- The second layer's output with its bias laid along the rows and added. -/
def lsmLogits (a : (⟨S100000x2, .f32⟩ : BufTy).Contents (Elt F)) (b : (⟨S2, .f32⟩ : BufTy).Contents (Elt F)) : (⟨S100000x2, .f32⟩ : BufTy).Contents (Elt F) :=
  (addf a (broadcastInDim S100000x2 ![0, 1] bcast_S1x2_S100000x2_0_1 (broadcastInDim S1x2 ![1] bcast_S2_S1x2_1 b)))

/-- Each row's maximum, taken once more against −∞. -/
def lsmMax (y : (⟨S100000x2, .f32⟩ : BufTy).Contents (Elt F)) : (⟨S100000, .f32⟩ : BufTy).Contents (Elt F) :=
  (maximumf (broadcastInDim S100000 ![] bcast_S_S100000 (constant S_ .f32 0xFF800000#32)) (Host.reduce FloatOps.maximumf y (constant S_ .f32 0xFF800000#32) reducesTo_S100000x2_S100000_d1 h_S_))

/-- The logits with their row's maximum subtracted. -/
def lsmShift (y : (⟨S100000x2, .f32⟩ : BufTy).Contents (Elt F)) (mx : (⟨S100000, .f32⟩ : BufTy).Contents (Elt F)) : (⟨S100000x2, .f32⟩ : BufTy).Contents (Elt F) :=
  (subf y (broadcastInDim S100000x2 ![0, 1] bcast_S100000x1_S100000x2_0_1 (broadcastInDim S100000x1 ![0] bcast_S100000_S100000x1_0 mx)))

/-- The shifted logits minus the logarithm of the row's sum of their exponentials. -/
def lsmOut (d : (⟨S100000x2, .f32⟩ : BufTy).Contents (Elt F)) : (⟨S100000x2, .f32⟩ : BufTy).Contents (Elt F) :=
  (subf d (broadcastInDim S100000x2 ![0, 1] bcast_S100000x1_S100000x2_0_1 (Host.log (broadcastInDim S100000x1 ![0] bcast_S100000_S100000x1_0 (Host.reduceAdd (Host.exp d) (constant S_ .f32 0x00000000#32) reducesTo_S100000x2_S100000_d1 h_S_)))))

/-- Bias, then the logarithm of the softmax along each row, as the reference spells it. -/
def biasLogSoftmax (a : (⟨S100000x2, .f32⟩ : BufTy).Contents (Elt F)) (b : (⟨S2, .f32⟩ : BufTy).Contents (Elt F)) : (⟨S100000x2, .f32⟩ : BufTy).Contents (Elt F) :=
  lsmOut (lsmShift (lsmLogits a b) (lsmMax (lsmLogits a b)))

/-- The whole reference, stage by stage. -/
def whole (x : (⟨S100000x512, .f32⟩ : BufTy).Contents (Elt F)) (e : (⟨S2x3200000, .i32⟩ : BufTy).Contents (Elt F)) (w1 : (⟨S512x16, .f32⟩ : BufTy).Contents (Elt F)) (b1 : (⟨S16, .f32⟩ : BufTy).Contents (Elt F))
    (w2 : (⟨S16x2, .f32⟩ : BufTy).Contents (Elt F)) (b2 : (⟨S2, .f32⟩ : BufTy).Contents (Elt F)) : (⟨S100000x2, .f32⟩ : BufTy).Contents (Elt F) :=
  biasLogSoftmax
    (aggregate2 (rowList e) (colList e) (normOf (rowList e) (colList e))
      (product2 (biasRectify (aggregate16 (rowList e) (colList e) (normOf (rowList e) (colList e)) (product16 x w1)) b1) w2))
    b2

/-- The normalisation is the per-node factor — the reciprocal square root of the edge count where there is an edge, zero
    elsewhere — taken at each edge's two nodes and multiplied. -/
theorem normOf_eq (r cl : (⟨S3300000, .i32⟩ : BufTy).Contents (Elt F)) :
    normOf (F := F) r cl = normFrom (whereSel (degPositive r) (degIsqrt r) (constant S_ .f32 0x00000000#32)) r cl := rfl

end Cert.ReferenceIdeal.Chain

end
-- ==== Proof.LibConcat2.lean ====
/-
  A concatenation of two pieces as a function of the two pieces.

  The concatenation of a list of (shape, array) pairs carries a fact about the list of shapes, so replacing a piece
  by an equal piece is not a plain substitution in the list. With exactly two pieces the shapes are fixed and only the
  arrays vary: the concatenation is a function of the two arrays, and equal arrays give equal concatenations.
-/
import Idealize.ShloMosaic.PureOps.ShapeOps

namespace Cert.Concat2

open Idealize.ShloMosaic

/-- The concatenation of two pieces along an axis, the pieces as plain arguments. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is that function of its pieces. -/
theorem concatenate_pair_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concat2 t a s₁ s₂ h x₁ x₂ := rfl

/-- Two pieces that agree one by one concatenate to the same array. -/
theorem concat_pair_congr {α : Type} (t : Shape) (a : Fin t.rank) (s₁ s₂ : Shape) (h : Shape.Concatenates [s₁, s₂] t a)
    {x₁ y₁ : s₁.Idx → α} {x₂ y₂ : s₂.Idx → α} (e₁ : x₁ = y₁) (e₂ : x₂ = y₂) :
    concatenate t a [⟨s₁, x₁⟩, ⟨s₂, x₂⟩] h = concatenate t a [⟨s₁, y₁⟩, ⟨s₂, y₂⟩] h := by
  subst e₁ e₂; rfl

end Cert.Concat2
-- ==== Proof.RefStages.lean ====
/-
  The reference's run, stretch by stretch.

  Its 99 host operations are cut into stretches: the node lists and the normalisation; the first product; the first
  gather–scale–add; bias and rectifier; the second product; the second gather–scale–add; bias and log-softmax (in three). From ANY
  contents of the buffers, a stretch leaves in its result buffer the stretch's function (RefChain) of what the buffers it
  reads held, and leaves every buffer it does not write as it was. Chained, they give the result buffer after the whole
  list as the staged function of the six arguments, and the run of the program follows from the run of a list of host
  operations.
-/
import proofs.«156108_j35880156790911_1_alg».proof.Proof.RefRun
import proofs.«156108_j35880156790911_1_alg».proof.Proof.RefChain
import proofs.«156108_j35880156790911_1_alg».proof.Proof.LibConcat2

set_option maxRecDepth 16384

noncomputable section

namespace Cert.ReferenceIdeal.Stages

open Cert.ReferenceIdeal Cert.ReferenceIdeal.Gen Cert.ReferenceIdeal.Chain Cert.ReferenceIdeal.ValueP Cert.Concat2
open Idealize.ShloMosaic Idealize.ShloMosaic.TcCoe Idealize.SL.Sem Idealize.ShloMosaic.StableHlo

variable {F : FTy → Type} [FloatOps F]

/-- Running one list of operations after another: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The seven stretches -/

/-- The node lists and the per-edge normalisation: operations 1 to 41. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    nullary main_v2 (iotaInDim S100000 32 0),
    binary main_v1 main_v2 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    nullary main_v6 (iotaInDim S100000 32 0),
    binary main_v5 main_v6 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v3 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first layer's product: operation 42. -/
abbrev opsB : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The first gather, scale and add: operations 43 to 58. -/
abbrev opsC : List (HloOp τ sig (Elt F)) :=
  [ nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v7 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v7 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v7 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v42 (broadcastInDim S100000x16 ![] bcast_S_S100000x16 : (⟨S_, .f32⟩ : BufTy).Contents (Elt F) → (⟨S100000x16, .f32⟩ : BufTy).Contents (Elt F)),
    unary main_v3 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The first bias and the rectifier: operations 59 to 64. -/
abbrev opsD : List (HloOp τ sig (Elt F)) :=
  [ unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- The second layer's product: operation 65. -/
abbrev opsE : List (HloOp τ sig (Elt F)) :=
  [ binary main_v48 main_arg4 main_v49 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)) ]

/-- The second gather, scale and add: operations 66 to 81. -/
abbrev opsF : List (HloOp τ sig (Elt F)) :=
  [ nullary main_c_9 (constantI S_ 32 0#32),
    unary main_c_9 main_v50 (broadcastInDim S3300000 ![] bcast_S_S3300000 : (⟨S_, .i32⟩ : BufTy).Contents (Elt F) → (⟨S3300000, .i32⟩ : BufTy).Contents (Elt F)),
    binary main_v7 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v52 (broadcastInDim S3300000 ![] bcast_S_S3300000 : (⟨S_, .i32⟩ : BufTy).Contents (Elt F) → (⟨S3300000, .i32⟩ : BufTy).Contents (Elt F)),
    binary main_v7 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v7 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v49 main_v55 main_v56 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v30 main_v57 (broadcastInDim S3300000x1 ![0] bcast_S3300000_S3300000x1_0 : (⟨S3300000, .f32⟩ : BufTy).Contents (Elt F) → (⟨S3300000x1, .f32⟩ : BufTy).Contents (Elt F)),
    unary main_v57 main_v58 (broadcastInDim S3300000x2 ![0, 1] bcast_S3300000x1_S3300000x2_0_1 : (⟨S3300000x1, .f32⟩ : BufTy).Contents (Elt F) → (⟨S3300000x2, .f32⟩ : BufTy).Contents (Elt F)),
    binary main_v56 main_v58 main_v59 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v60 (broadcastInDim S100000x2 ![] bcast_S_S100000x2 : (⟨S_, .f32⟩ : BufTy).Contents (Elt F) → (⟨S100000x2, .f32⟩ : BufTy).Contents (Elt F)),
    unary main_v3 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- The second bias: operations 82 to 84. -/
abbrev opsG1 : List (HloOp τ sig (Elt F)) :=
  [ unary main_arg5 main_v63 (broadcastInDim S1x2 ![1] bcast_S2_S1x2_1 : (⟨S2, .f32⟩ : BufTy).Contents (Elt F) → (⟨S1x2, .f32⟩ : BufTy).Contents (Elt F)),
    unary main_v63 main_v64 (broadcastInDim S100000x2 ![0, 1] bcast_S1x2_S100000x2_0_1 : (⟨S1x2, .f32⟩ : BufTy).Contents (Elt F) → (⟨S100000x2, .f32⟩ : BufTy).Contents (Elt F)),
    binary main_v62 main_v64 main_v65 (addf : (⟨S100000x2, .f32⟩ : BufTy).Contents (Elt F) → (⟨S100000x2, .f32⟩ : BufTy).Contents (Elt F) → (⟨S100000x2, .f32⟩ : BufTy).Contents (Elt F)) ]

/-- Each row's maximum subtracted: operations 85 to 92. -/
abbrev opsG2 : List (HloOp τ sig (Elt F)) :=
  [ TRef.nullary (TRef.of (T := ⟨S_, .f32⟩) main_call2_cst) (constant S_ .f32 0xFF800000#32),
    TRef.binary (TRef.of (T := ⟨S100000x2, .f32⟩) main_v65) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v65) (TRef.of (T := ⟨S100000x2, .f32⟩) main_call2_v4) (TRef.of (T := ⟨S100000x2, .f32⟩) main_call2_v5) subf ]

/-- The logarithm of the row's sum of exponentials subtracted: operations 93 to 99. -/
abbrev opsG3 : List (HloOp τ sig (Elt F)) :=
  [ TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v66) subf ]

/-- The program's list is the stretches in order. -/
theorem ops_split : (ops : List (HloOp τ sig (Elt F))) = opsA ++ (opsB ++ (opsC ++ (opsD ++ (opsE ++ (opsF ++ (opsG1 ++ (opsG2 ++ opsG3))))))) := rfl

/-! ## What each stretch leaves -/

theorem A_rows (W : Valuation τ sig (Elt F)) :
    after opsA W (Proc.devRef .tc main_v3) = rowList (W (Proc.devRef .tc main_arg1)) := by
  simp only [opsA, concatenate_pair_eq]
  after_results_simp <;> rfl

theorem A_cols (W : Valuation τ sig (Elt F)) :
    after opsA W (Proc.devRef .tc main_v7) = colList (W (Proc.devRef .tc main_arg1)) := by
  simp only [opsA, concatenate_pair_eq]
  after_results_simp <;> rfl

theorem A_norm (W : Valuation τ sig (Elt F)) :
    after opsA W (Proc.devRef .tc main_v30) = normOf (rowList (W (Proc.devRef .tc main_arg1))) (colList (W (Proc.devRef .tc main_arg1))) := by
  simp only [opsA, concatenate_pair_eq]
  after_results_simp <;> rfl

theorem A_keep_arg0 (W : Valuation τ sig (Elt F)) :
    after opsA W (Proc.devRef .tc main_arg0) = (W (Proc.devRef .tc main_arg0)) := by
  after_results_simp <;> rfl
theorem A_keep_arg2 (W : Valuation τ sig (Elt F)) :
    after opsA W (Proc.devRef .tc main_arg2) = (W (Proc.devRef .tc main_arg2)) := by
  after_results_simp <;> rfl
theorem A_keep_arg3 (W : Valuation τ sig (Elt F)) :
    after opsA W (Proc.devRef .tc main_arg3) = (W (Proc.devRef .tc main_arg3)) := by
  after_results_simp <;> rfl
theorem A_keep_arg4 (W : Valuation τ sig (Elt F)) :
    after opsA W (Proc.devRef .tc main_arg4) = (W (Proc.devRef .tc main_arg4)) := by
  after_results_simp <;> rfl
theorem A_keep_arg5 (W : Valuation τ sig (Elt F)) :
    after opsA W (Proc.devRef .tc main_arg5) = (W (Proc.devRef .tc main_arg5)) := by
  after_results_simp <;> rfl

theorem B_prod (W : Valuation τ sig (Elt F)) :
    after opsB W (Proc.devRef .tc main_v31) = product16 (W (Proc.devRef .tc main_arg0)) (W (Proc.devRef .tc main_arg2)) := by
  after_results_simp <;> rfl

theorem B_keep_v3 (W : Valuation τ sig (Elt F)) :
    after opsB W (Proc.devRef .tc main_v3) = (W (Proc.devRef .tc main_v3)) := by
  after_results_simp <;> rfl
theorem B_keep_v7 (W : Valuation τ sig (Elt F)) :
    after opsB W (Proc.devRef .tc main_v7) = (W (Proc.devRef .tc main_v7)) := by
  after_results_simp <;> rfl
theorem B_keep_v30 (W : Valuation τ sig (Elt F)) :
    after opsB W (Proc.devRef .tc main_v30) = (W (Proc.devRef .tc main_v30)) := by
  after_results_simp <;> rfl
theorem B_keep_arg3 (W : Valuation τ sig (Elt F)) :
    after opsB W (Proc.devRef .tc main_arg3) = (W (Proc.devRef .tc main_arg3)) := by
  after_results_simp <;> rfl
theorem B_keep_arg4 (W : Valuation τ sig (Elt F)) :
    after opsB W (Proc.devRef .tc main_arg4) = (W (Proc.devRef .tc main_arg4)) := by
  after_results_simp <;> rfl
theorem B_keep_arg5 (W : Valuation τ sig (Elt F)) :
    after opsB W (Proc.devRef .tc main_arg5) = (W (Proc.devRef .tc main_arg5)) := by
  after_results_simp <;> rfl

theorem C_agg (W : Valuation τ sig (Elt F)) :
    after opsC W (Proc.devRef .tc main_v44) = aggregate16 (W (Proc.devRef .tc main_v3)) (W (Proc.devRef .tc main_v7)) (W (Proc.devRef .tc main_v30)) (W (Proc.devRef .tc main_v31)) := by
  after_results_simp <;> rfl

theorem C_keep_v3 (W : Valuation τ sig (Elt F)) :
    after opsC W (Proc.devRef .tc main_v3) = (W (Proc.devRef .tc main_v3)) := by
  after_results_simp <;> rfl
theorem C_keep_v7 (W : Valuation τ sig (Elt F)) :
    after opsC W (Proc.devRef .tc main_v7) = (W (Proc.devRef .tc main_v7)) := by
  after_results_simp <;> rfl
theorem C_keep_v30 (W : Valuation τ sig (Elt F)) :
    after opsC W (Proc.devRef .tc main_v30) = (W (Proc.devRef .tc main_v30)) := by
  after_results_simp <;> rfl
theorem C_keep_arg3 (W : Valuation τ sig (Elt F)) :
    after opsC W (Proc.devRef .tc main_arg3) = (W (Proc.devRef .tc main_arg3)) := by
  after_results_simp <;> rfl
theorem C_keep_arg4 (W : Valuation τ sig (Elt F)) :
    after opsC W (Proc.devRef .tc main_arg4) = (W (Proc.devRef .tc main_arg4)) := by
  after_results_simp <;> rfl
theorem C_keep_arg5 (W : Valuation τ sig (Elt F)) :
    after opsC W (Proc.devRef .tc main_arg5) = (W (Proc.devRef .tc main_arg5)) := by
  after_results_simp <;> rfl

theorem D_relu (W : Valuation τ sig (Elt F)) :
    after opsD W (Proc.devRef .tc main_v48) = biasRectify (W (Proc.devRef .tc main_v44)) (W (Proc.devRef .tc main_arg3)) := by
  after_results_simp <;> rfl

theorem D_keep_v3 (W : Valuation τ sig (Elt F)) :
    after opsD W (Proc.devRef .tc main_v3) = (W (Proc.devRef .tc main_v3)) := by
  after_results_simp <;> rfl
theorem D_keep_v7 (W : Valuation τ sig (Elt F)) :
    after opsD W (Proc.devRef .tc main_v7) = (W (Proc.devRef .tc main_v7)) := by
  after_results_simp <;> rfl
theorem D_keep_v30 (W : Valuation τ sig (Elt F)) :
    after opsD W (Proc.devRef .tc main_v30) = (W (Proc.devRef .tc main_v30)) := by
  after_results_simp <;> rfl
theorem D_keep_arg4 (W : Valuation τ sig (Elt F)) :
    after opsD W (Proc.devRef .tc main_arg4) = (W (Proc.devRef .tc main_arg4)) := by
  after_results_simp <;> rfl
theorem D_keep_arg5 (W : Valuation τ sig (Elt F)) :
    after opsD W (Proc.devRef .tc main_arg5) = (W (Proc.devRef .tc main_arg5)) := by
  after_results_simp <;> rfl

theorem E_prod (W : Valuation τ sig (Elt F)) :
    after opsE W (Proc.devRef .tc main_v49) = product2 (W (Proc.devRef .tc main_v48)) (W (Proc.devRef .tc main_arg4)) := by
  after_results_simp <;> rfl

theorem E_keep_v3 (W : Valuation τ sig (Elt F)) :
    after opsE W (Proc.devRef .tc main_v3) = (W (Proc.devRef .tc main_v3)) := by
  after_results_simp <;> rfl
theorem E_keep_v7 (W : Valuation τ sig (Elt F)) :
    after opsE W (Proc.devRef .tc main_v7) = (W (Proc.devRef .tc main_v7)) := by
  after_results_simp <;> rfl
theorem E_keep_v30 (W : Valuation τ sig (Elt F)) :
    after opsE W (Proc.devRef .tc main_v30) = (W (Proc.devRef .tc main_v30)) := by
  after_results_simp <;> rfl
theorem E_keep_arg5 (W : Valuation τ sig (Elt F)) :
    after opsE W (Proc.devRef .tc main_arg5) = (W (Proc.devRef .tc main_arg5)) := by
  after_results_simp <;> rfl

theorem F_agg (W : Valuation τ sig (Elt F)) :
    after opsF W (Proc.devRef .tc main_v62) = aggregate2 (W (Proc.devRef .tc main_v3)) (W (Proc.devRef .tc main_v7)) (W (Proc.devRef .tc main_v30)) (W (Proc.devRef .tc main_v49)) := by
  after_results_simp <;> rfl

theorem F_keep_arg5 (W : Valuation τ sig (Elt F)) :
    after opsF W (Proc.devRef .tc main_arg5) = (W (Proc.devRef .tc main_arg5)) := by
  after_results_simp <;> rfl

set_option maxRecDepth 100000 in
theorem G1_logits (W : Valuation τ sig (Elt F)) :
    after opsG1 W (Proc.devRef .tc main_v65) = lsmLogits (W (Proc.devRef .tc main_v62)) (W (Proc.devRef .tc main_arg5)) := by
  after_results_simp <;> rfl

/-- The same stretch with the row reduction replaced by an arbitrary function g of the array and the initial value: the
    stretch subtracts, from each row, the larger of −∞ and g's value at that row, whatever g is. -/
abbrev opsG2of (g : (⟨S100000x2, .f32⟩ : BufTy).Contents (Elt F) → (⟨S_, .f32⟩ : BufTy).Contents (Elt F) → (⟨S100000, .f32⟩ : BufTy).Contents (Elt F)) : List (HloOp τ sig (Elt F)) :=
  [ TRef.nullary (TRef.of (T := ⟨S_, .f32⟩) main_call2_cst) (constant S_ .f32 0xFF800000#32),
    TRef.binary (TRef.of (T := ⟨S100000x2, .f32⟩) main_v65) (TRef.of (T := ⟨S_, .f32⟩) main_call2_cst) (TRef.of (T := ⟨S100000, .f32⟩) main_call2_v0) g,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v65) (TRef.of (T := ⟨S100000x2, .f32⟩) main_call2_v4) (TRef.of (T := ⟨S100000x2, .f32⟩) main_call2_v5) subf ]

set_option maxRecDepth 100000 in
theorem G2_of (g : (⟨S100000x2, .f32⟩ : BufTy).Contents (Elt F) → (⟨S_, .f32⟩ : BufTy).Contents (Elt F) → (⟨S100000, .f32⟩ : BufTy).Contents (Elt F)) (W : Valuation τ sig (Elt F)) :
    after (opsG2of g) W (Proc.devRef .tc main_call2_v5)
      = subf (W (Proc.devRef .tc main_v65)) (broadcastInDim S100000x2 ![0, 1] bcast_S100000x1_S100000x2_0_1 (broadcastInDim S100000x1 ![0] bcast_S100000_S100000x1_0
          (maximumf (broadcastInDim S100000 ![] bcast_S_S100000 (constant S_ .f32 0xFF800000#32)) (g (W (Proc.devRef .tc main_v65)) (constant S_ .f32 0xFF800000#32))))) := by
  after_results_simp <;> rfl

theorem G2_shift (W : Valuation τ sig (Elt F)) :
    after opsG2 W (Proc.devRef .tc main_call2_v5) = lsmShift (W (Proc.devRef .tc main_v65)) (lsmMax (W (Proc.devRef .tc main_v65))) :=
  G2_of (fun x v => Host.reduce FloatOps.maximumf x v reducesTo_S100000x2_S100000_d1 h_S_) W

set_option maxRecDepth 100000 in
theorem G3_out (W : Valuation τ sig (Elt F)) :
    after opsG3 W (Proc.devRef .tc main_v66) = lsmOut (W (Proc.devRef .tc main_call2_v5)) := by
  after_results_simp <;> rfl

/-! ## The whole list -/

/-- After the whole list, from any contents, the result buffer holds the staged function of the six arguments' contents. -/
theorem after_ops (W : Valuation τ sig (Elt F)) :
    after ops W (Proc.devRef .tc main_v66)
      = whole (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split]
  simp only [after_append]
  rw [G3_out, G2_shift, G1_logits, F_agg, F_keep_arg5]
  rw [E_prod, E_keep_v3, E_keep_v7, E_keep_v30, E_keep_arg5]
  rw [D_relu, D_keep_v3, D_keep_v7, D_keep_v30, D_keep_arg4, D_keep_arg5]
  rw [C_agg, C_keep_v3, C_keep_v7, C_keep_v30, C_keep_arg3, C_keep_arg4, C_keep_arg5]
  rw [B_prod, B_keep_v3, B_keep_v7, B_keep_v30, B_keep_arg3, B_keep_arg4, B_keep_arg5]
  rw [A_rows, A_cols, A_norm, A_keep_arg0, A_keep_arg2, A_keep_arg3, A_keep_arg4, A_keep_arg5]
  rfl

set_option maxRecDepth 8192 in
set_option maxHeartbeats 39600000 in
/-- On every device, from any memory with zero counters: every weakly fair execution of the reference terminates with the
    result buffer at the staged function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (after_ops _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.Spec.lean ====
/-
  What the two programs compute between their shared host stretches, as four whole-array functions on the
  extended reals, index by index:

    matProd16 x w  (i, j) = Σ_q x(i, q) · w(q, j)            the first layer's product, 512 terms
    biasRelu a b   (i, j) = max (a(i, j) + b(j)) 0            the first layer's bias and rectifier
    matProd2 h w   (i, j) = Σ_q h(i, q) · w(q, j)            the second layer's product, 16 terms
    biasLogSoftmax a b (i, j) = (y_j − M) − log Σ_q exp (y_q − M)
                      where y_q = a(i, q) + b(q) and M is the larger of y_0, y_1 (a fold of max from −∞)

  Every one of them reads, at row i, only row i of its first operand: that is why a kernel that walks the rows
  in blocks of 5000 computes the same array as a host operation on the whole array.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Row i, column q of an array with n rows and k columns, from an index of an array with the same rows. -/
abbrev rowAt {n p k : Nat} (i : (⟨2, ![n, p]⟩ : Shape).Idx) (q : Fin k) : (⟨2, ![n, k]⟩ : Shape).Idx :=
  ix2 ⟨(i 0).val, (i 0).isLt⟩ q

/-- Row q, the index's own column, of a k-row array. -/
abbrev colAt {n p k : Nat} (i : (⟨2, ![n, p]⟩ : Shape).Idx) (q : Fin k) : (⟨2, ![k, p]⟩ : Shape).Idx :=
  ix2 q ⟨(i 1).val, (i 1).isLt⟩

/-- The index's own column, as an index of a vector. -/
abbrev colOf {n p : Nat} (i : (⟨2, ![n, p]⟩ : Shape).Idx) : (⟨1, ![p]⟩ : Shape).Idx :=
  ix1 ⟨(i 1).val, (i 1).isLt⟩

/-- The first layer's product: the sum over the 512 features of x(i, q) · w(q, j). -/
def matProd16 (x : FVec Ideal ⟨2, ![100000, 512]⟩ .f32) (w : FVec Ideal ⟨2, ![512, 16]⟩ .f32) :
    FVec Ideal ⟨2, ![100000, 16]⟩ .f32 :=
  fun i => ∑ q : Fin 512, x (rowAt i q) * w (colAt i q)

/-- The second layer's product: the sum over the 16 hidden features of h(i, q) · w(q, j). -/
def matProd2 (h : FVec Ideal ⟨2, ![100000, 16]⟩ .f32) (w : FVec Ideal ⟨2, ![16, 2]⟩ .f32) :
    FVec Ideal ⟨2, ![100000, 2]⟩ .f32 :=
  fun i => ∑ q : Fin 16, h (rowAt i q) * w (colAt i q)

/-- Bias, then the rectifier: max (a(i, j) + b(j)) 0. -/
def biasRelu (a : FVec Ideal ⟨2, ![100000, 16]⟩ .f32) (b : FVec Ideal ⟨1, ![16]⟩ .f32) :
    FVec Ideal ⟨2, ![100000, 16]⟩ .f32 :=
  fun i => max (a i + b (colOf i)) (Ideal.ofBits .f32 0x00000000#32)

/-- Row i of the second layer's output with its bias: the two logits. -/
abbrev logits (a : FVec Ideal ⟨2, ![100000, 2]⟩ .f32) (b : FVec Ideal ⟨1, ![2]⟩ .f32)
    (i : (⟨2, ![100000, 2]⟩ : Shape).Idx) (q : Fin 2) : EReal :=
  a (rowAt i q) + b (ix1 q)

/-- The larger of a row's two logits, as a fold of max from −∞. -/
abbrev rowMax (a : FVec Ideal ⟨2, ![100000, 2]⟩ .f32) (b : FVec Ideal ⟨1, ![2]⟩ .f32)
    (i : (⟨2, ![100000, 2]⟩ : Shape).Idx) : EReal :=
  (Finset.univ : Finset (Fin 2)).fold max (Ideal.ofBits .f32 0xFF800000#32) (logits a b i)

/-- Bias, then the logarithm of the softmax along a row: (y_j − M) − log Σ_q exp (y_q − M). -/
def biasLogSoftmax (a : FVec Ideal ⟨2, ![100000, 2]⟩ .f32) (b : FVec Ideal ⟨1, ![2]⟩ .f32) :
    FVec Ideal ⟨2, ![100000, 2]⟩ .f32 :=
  fun i => (logits a b i ⟨(i 1).val, (i 1).isLt⟩ - rowMax a b i)
    - Ideal.log (∑ q : Fin 2, Ideal.exp (logits a b i q - rowMax a b i))

/-- A fold of max is at least the value it starts from, so taking max with that value again changes nothing. -/
theorem max_fold_max_self {ι : Type} (s : Finset ι) (b : EReal) (f : ι → EReal) :
    max b (s.fold max b f) = s.fold max b f :=
  max_eq_right ((Finset.le_fold_max b).mpr (Or.inl le_rfl))

end Cert.Gcn

end
-- ==== Proof.RefValue.lean ====
/-
  The reference at the ideal values, stage by stage.

  Of the reference's stages (RefChain), four are read at an index here: the two host products are the sums Σ_q x(i, q) · w(q, j); the bias and rectifier is max (a(i, j) + b(j)) 0; and the
  logarithm of the softmax along a row is (y_j − M) − log Σ_q exp (y_q − M) with y the row's two logits and M their
  maximum — the reference takes the maximum of the row (a reduction by max from −∞) and once more against −∞, which
  changes nothing, and starts its sum of exponentials from 0, which changes nothing either.
-/
import proofs.«156108_j35880156790911_1_alg».proof.Proof.RefChain
import proofs.«156108_j35880156790911_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Chain
open Idealize.ShloMosaic Idealize.ShloMosaic.TcCoe Idealize.SL.Sem Idealize.ShloMosaic.ValueIdx Cert.Gcn

/-! ## The two products -/

/-! The operand indices of the two host products at an output index and a contraction index: the output's row and the
    contraction index on the left, the contraction index and the output's column on the right. -/

theorem d1_lhs_row (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem d1_lhs_col (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
theorem d1_rhs_row (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
theorem d1_rhs_col (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

theorem d2_lhs_row (i : S100000x2.Idx) (q : dot_S100000x16_S16x2_S100000x2_1_0_0_1_n_n.contr.Idx) : (dot_S100000x16_S16x2_S100000x2_1_0_0_1_n_n.lhsIdx i q 0).val = (i 0).val := by
  unfold DotDims.lhsIdx
  rw [dif_neg (show ¬(0 : Fin S100000x16.rank) ∈ dot_S100000x16_S16x2_S100000x2_1_0_0_1_n_n.lhsBatch by decide), dif_pos (show (0 : Fin S100000x16.rank) ∈ dot_S100000x16_S16x2_S100000x2_1_0_0_1_n_n.lhsNonContracting by decide)]
  rfl
theorem d2_lhs_col (i : S100000x2.Idx) (q : dot_S100000x16_S16x2_S100000x2_1_0_0_1_n_n.contr.Idx) : (dot_S100000x16_S16x2_S100000x2_1_0_0_1_n_n.lhsIdx i q 1).val = (q ⟨0, by decide⟩).val :=
  dot_S100000x16_S16x2_S100000x2_1_0_0_1_n_n.lhsIdx_val_of_single rfl i q
theorem d2_rhs_row (i : S100000x2.Idx) (q : dot_S100000x16_S16x2_S100000x2_1_0_0_1_n_n.contr.Idx) : (dot_S100000x16_S16x2_S100000x2_1_0_0_1_n_n.rhsIdx i q 0).val = (q ⟨0, by decide⟩).val :=
  dot_S100000x16_S16x2_S100000x2_1_0_0_1_n_n.rhsIdx_val_of_single rfl i q
theorem d2_rhs_col (i : S100000x2.Idx) (q : dot_S100000x16_S16x2_S100000x2_1_0_0_1_n_n.contr.Idx) : (dot_S100000x16_S16x2_S100000x2_1_0_0_1_n_n.rhsIdx i q 1).val = (i 1).val := by
  unfold DotDims.rhsIdx
  rw [dif_neg (show ¬(1 : Fin S16x2.rank) ∈ dot_S100000x16_S16x2_S100000x2_1_0_0_1_n_n.rhsBatch by decide), dif_pos (show (1 : Fin S16x2.rank) ∈ dot_S100000x16_S16x2_S100000x2_1_0_0_1_n_n.rhsNonContracting by decide)]
  rfl

/-- The first host product at an index: the sum over the 512 features. -/
theorem product16_eq (x : FVec Ideal S100000x512 .f32) (w : FVec Ideal S512x16 .f32) :
    product16 (F := Ideal) x w = matProd16 x w := by
  funext i
  unfold product16 matProd16
  simp only [Host.dotGeneral]
  rw [Ideal.dotGeneral_apply, ← Equiv.sum_comp (contrEquiv1 dot_S100000x512_S512x16_S100000x16_1_0_0_1_n_n 512 rfl rfl).symm]
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx i ((contrEquiv1 dot_S100000x512_S512x16_S100000x16_1_0_0_1_n_n 512 rfl rfl).symm k) = rowAt i k := funext fun a => Fin.ext (by
    match a with
    | ⟨0, _⟩ => exact d1_lhs_row _ _
    | ⟨1, _⟩ => exact (d1_lhs_col _ _).trans hk)
  have er : dot_S100000x512_S512x16_S100000x16_1_0_0_1_n_n.rhsIdx i ((contrEquiv1 dot_S100000x512_S512x16_S100000x16_1_0_0_1_n_n 512 rfl rfl).symm k) = colAt i k := funext fun a => Fin.ext (by
    match a with
    | ⟨0, _⟩ => exact (d1_rhs_row _ _).trans hk
    | ⟨1, _⟩ => exact d1_rhs_col _ _)
  rw [el, er]

/-- The second host product at an index: the sum over the 16 hidden features. -/
theorem product2_eq (g : FVec Ideal S100000x16 .f32) (w : FVec Ideal S16x2 .f32) :
    product2 (F := Ideal) g w = matProd2 g w := by
  funext i
  unfold product2 matProd2
  simp only [Host.dotGeneral]
  rw [Ideal.dotGeneral_apply, ← Equiv.sum_comp (contrEquiv1 dot_S100000x16_S16x2_S100000x2_1_0_0_1_n_n 16 rfl rfl).symm]
  refine Finset.sum_congr rfl fun k _ => ?_
  have hk := contrEquiv1_symm_val dot_S100000x16_S16x2_S100000x2_1_0_0_1_n_n 16 rfl rfl k
  have el : dot_S100000x16_S16x2_S100000x2_1_0_0_1_n_n.lhsIdx i ((contrEquiv1 dot_S100000x16_S16x2_S100000x2_1_0_0_1_n_n 16 rfl rfl).symm k) = rowAt i k := funext fun a => Fin.ext (by
    match a with
    | ⟨0, _⟩ => exact d2_lhs_row _ _
    | ⟨1, _⟩ => exact (d2_lhs_col _ _).trans hk)
  have er : dot_S100000x16_S16x2_S100000x2_1_0_0_1_n_n.rhsIdx i ((contrEquiv1 dot_S100000x16_S16x2_S100000x2_1_0_0_1_n_n 16 rfl rfl).symm k) = colAt i k := funext fun a => Fin.ext (by
    match a with
    | ⟨0, _⟩ => exact (d2_rhs_row _ _).trans hk
    | ⟨1, _⟩ => exact d2_rhs_col _ _)
  rw [el, er]

/-! ## Bias and rectifier -/

/-- A bias vector laid along the rows of a [100000, 16] array reads, at (i, j), entry j of the vector. -/
theorem bias16_apply (b : FVec Ideal S16 .f32) (i : S100000x16.Idx) :
    (broadcastInDim S100000x16 ![0, 1] bcast_S1x16_S100000x16_0_1 (broadcastInDim S1x16 ![1] bcast_S16_S1x16_1 b)) i = b (colOf i) := by
  refine (broadcastInDim_apply _ bcast_S1x16_S100000x16_0_1 _ i (ix2 (0 : Fin 1) ⟨(i 1).val, (i 1).isLt⟩) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  exact broadcastInDim_apply _ bcast_S16_S1x16_1 b _ (colOf i) (fun a => match a with
    | ⟨0, _⟩ => by show (i 1).val = if (16 : Nat) = 1 then 0 else (i 1).val; rw [if_neg (by decide)])

theorem biasRectify_eq (a : FVec Ideal S100000x16 .f32) (b : FVec Ideal S16 .f32) :
    biasRectify (F := Ideal) a b = biasRelu a b := by
  funext i
  unfold biasRectify biasRelu
  show max (a i + (broadcastInDim S100000x16 ![0, 1] bcast_S1x16_S100000x16_0_1 (broadcastInDim S1x16 ![1] bcast_S16_S1x16_1 b)) i)
      ((broadcastInDim S100000x16 ![] bcast_S_S100000x16 (constant (F := Ideal) S_ .f32 0x00000000#32)) i) = _
  rw [bias16_apply]
  rfl

/-! ## Bias and the logarithm of the softmax -/

/-- A bias vector laid along the rows of a [100000, 2] array reads, at (i, j), entry j of the vector. -/
theorem bias2_apply (b : FVec Ideal S2 .f32) (i : S100000x2.Idx) :
    (broadcastInDim S100000x2 ![0, 1] bcast_S1x2_S100000x2_0_1 (broadcastInDim S1x2 ![1] bcast_S2_S1x2_1 b)) i = b (colOf i) := by
  refine (broadcastInDim_apply _ bcast_S1x2_S100000x2_0_1 _ i (ix2 (0 : Fin 1) ⟨(i 1).val, (i 1).isLt⟩) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])).trans ?_
  exact broadcastInDim_apply _ bcast_S2_S1x2_1 b _ (colOf i) (fun a => match a with
    | ⟨0, _⟩ => by show (i 1).val = if (2 : Nat) = 1 then 0 else (i 1).val; rw [if_neg (by decide)])

/-- The logits at an index. -/
theorem lsmLogits_apply (a : FVec Ideal S100000x2 .f32) (b : FVec Ideal S2 .f32) (i : S100000x2.Idx) :
    lsmLogits (F := Ideal) a b i = a i + b (colOf i) := by
  unfold lsmLogits
  show a i + (broadcastInDim S100000x2 ![0, 1] bcast_S1x2_S100000x2_0_1 (broadcastInDim S1x2 ![1] bcast_S2_S1x2_1 b)) i = _
  rw [bias2_apply]

/-- A per-row value kept as a column and laid along the two columns reads, at (i, j), the value of row i. -/
theorem keep_apply (v : FVec Ideal S100000 .f32) (i : S100000x2.Idx) :
    (broadcastInDim S100000x2 ![0, 1] bcast_S100000x1_S100000x2_0_1 (broadcastInDim S100000x1 ![0] bcast_S100000_S100000x1_0 v)) i
      = v (ix1 ⟨(i 0).val, (i 0).isLt⟩) := by
  refine (broadcastInDim_apply _ bcast_S100000x1_S100000x2_0_1 _ i (ix2 ⟨(i 0).val, (i 0).isLt⟩ (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 v _ (ix1 ⟨(i 0).val, (i 0).isLt⟩) (fun a => match a with
    | ⟨0, _⟩ => by show (i 0).val = if (100000 : Nat) = 1 then 0 else (i 0).val; rw [if_neg (by decide)])

/-- The index the row reduction inserts: row p, column k. -/
theorem lift_eq (h : S100000x2.Reduces [1] S100000) (p : Fin 100000) (k : Fin 2) : h.lift (ix1 p) k = ix2 p k :=
  funext fun a => Fin.ext (by match a with | ⟨0, _⟩ => rfl | ⟨1, _⟩ => rfl)

/-- A row's maximum as the reference takes it: the fold of max from −∞ over the row. -/
theorem lsmMax_apply (y : FVec Ideal S100000x2 .f32) (p : Fin 100000) :
    lsmMax (F := Ideal) y (ix1 p) = (Finset.univ : Finset (Fin 2)).fold max (Ideal.ofBits .f32 0xFF800000#32) (fun k => y (ix2 p k)) := by
  unfold lsmMax
  show max ((broadcastInDim S100000 ![] bcast_S_S100000 (constant (F := Ideal) S_ .f32 0xFF800000#32)) (ix1 p))
      (Host.reduce FloatOps.maximumf y (constant (F := Ideal) S_ .f32 0xFF800000#32) reducesTo_S100000x2_S100000_d1 h_S_ (ix1 p)) = _
  have hred : S100000x2.Reduces [1] S100000 := by decide
  rw [Host.reduce_eq_fold_single FloatOps.maximumf y _ reducesTo_S100000x2_S100000_d1 hred h_S_]
  have hf : (y ∘ hred.lift (ix1 p)) = fun k : Fin 2 => y (ix2 p k) := funext fun k => congrArg y (lift_eq hred p k)
  rw [hf]
  exact max_fold_max_self _ _ _

/-- A row's sum of exponentials as the reference takes it: from 0, over the row. -/
theorem lsmSum_apply (d : FVec Ideal S100000x2 .f32) (p : Fin 100000) :
    Host.reduceAdd (Host.exp d) (constant (F := Ideal) S_ .f32 0x00000000#32) reducesTo_S100000x2_S100000_d1 h_S_ (ix1 p)
      = ∑ k : Fin 2, Ideal.exp (d (ix2 p k)) := by
  have hred : S100000x2.Reduces [1] S100000 := by decide
  simp only [Host.reduceAdd, Ideal.hostReduceAdd_def]
  rw [Ideal.hostReduceAdd_single reducesTo_S100000x2_S100000_d1 hred]
  show Ideal.ofBits .f32 0x00000000#32 + _ = _
  rw [Ideal.ofBits_zero_f32, zero_add]
  exact Finset.sum_congr rfl fun k _ => congrArg (fun j => Ideal.exp (d j)) (lift_eq hred p k)

theorem biasLogSoftmax_eq (a : FVec Ideal S100000x2 .f32) (b : FVec Ideal S2 .f32) :
    Cert.ReferenceIdeal.Chain.biasLogSoftmax (F := Ideal) a b = Cert.Gcn.biasLogSoftmax a b := by
  funext i
  obtain ⟨p, q, rfl⟩ : ∃ (p : Fin 100000) (q : Fin 2), i = ix2 p q := ⟨i 0, i 1, eq_ix2 i⟩
  unfold Cert.ReferenceIdeal.Chain.biasLogSoftmax Cert.Gcn.biasLogSoftmax
  -- the logits, the row maximum and the shifted logits at this row
  have ey : ∀ k : Fin 2, lsmLogits (F := Ideal) a b (ix2 p k) = logits a b (ix2 p q) k := fun k => lsmLogits_apply a b (ix2 p k)
  have eM : lsmMax (F := Ideal) (lsmLogits a b) (ix1 p) = rowMax a b (ix2 p q) :=
    (lsmMax_apply _ p).trans (congrArg (fun f => (Finset.univ : Finset (Fin 2)).fold max (Ideal.ofBits .f32 0xFF800000#32) f) (funext ey))
  have ed : ∀ k : Fin 2, lsmShift (F := Ideal) (lsmLogits a b) (lsmMax (lsmLogits a b)) (ix2 p k) = logits a b (ix2 p q) k - rowMax a b (ix2 p q) := fun k => by
    unfold lsmShift
    show lsmLogits (F := Ideal) a b (ix2 p k) - (broadcastInDim S100000x2 ![0, 1] bcast_S100000x1_S100000x2_0_1 (broadcastInDim S100000x1 ![0] bcast_S100000_S100000x1_0 (lsmMax (lsmLogits a b)))) (ix2 p k) = _
    rw [keep_apply, ey k]
    exact congrArg₂ (fun u v : EReal => u - v) rfl eM
  generalize lsmShift (F := Ideal) (lsmLogits a b) (lsmMax (lsmLogits a b)) = d at ed ⊢
  unfold lsmOut
  show d (ix2 p q) - (broadcastInDim S100000x2 ![0, 1] bcast_S100000x1_S100000x2_0_1 (Host.log (broadcastInDim S100000x1 ![0] bcast_S100000_S100000x1_0
      (Host.reduceAdd (Host.exp d) (constant (F := Ideal) S_ .f32 0x00000000#32) reducesTo_S100000x2_S100000_d1 h_S_)))) (ix2 p q) = _
  rw [ed q]
  refine congrArg₂ (fun u v : EReal => u - v) rfl ?_
  refine (broadcastInDim_apply _ bcast_S100000x1_S100000x2_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  simp only [Host.log, Ideal.hostUnary_log_def]
  refine congrArg Ideal.log ?_
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  rw [lsmSum_apply]
  exact Finset.sum_congr rfl fun k _ => congrArg Ideal.exp (ed k)

end Cert.ReferenceIdeal.RefValue

end
-- ==== Proof.KernelRun.lean ====
/-
  The idealized kernel's run with its RESULT named.

  The program is four tiled kernel launches among five stretches of host operations. Its run goes boundary by
  boundary: after each stretch every buffer holds what the stretch's operations make of the contents before it,
  and after each launch the launch's arrays hold what its write-backs leave. The last boundary's contents are the
  final memory. Read there: the result buffer holds the last boundary's contents of that buffer, and the six
  argument buffers hold what they were launched with.
-/
import proofs.«156108_j35880156790911_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes
-- unfolding plain definitions in a metavariable's type
set_option backward.isDefEq.respectTransparency.types false in
/-- Every weakly fair execution of the program terminates without a fault; the result buffer then holds the last
    boundary's contents of it, and each argument buffer its launch contents. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.Region0.lean ====
/-
  The first launch: a [100000, 512] array times a [512, 16] array, the rows walked in 20 blocks of 5000.

  At point t the body loads rows 5000t … 5000t + 4999 of the left array and the whole right array, multiplies them into
  a zero accumulator, and stores the [5000, 16] product, which is written back as rows 5000t … of the output. Entry
  (r, j) of that product is the sum over the 512 columns q of left(5000t + r, q) · right(q, j): the entry of the whole
  product at row 5000t + r. The 20 blocks tile the output's rows, so the output array ends as the whole product.
-/
import proofs.«156108_j35880156790911_1_alg».proof.Proof.Gen.KernelIdeal.Frame
import proofs.«156108_j35880156790911_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the buffers when the launch is entered: a parameter, as in the launch's generated half
variable (V : (c : Dev nD) → (b : Ref sig .tc) → Buf (Elt Ideal) ((c : Thread nD τ).loc b))

theorem hz : (![0, 0] : Fin 2 → Nat) = fun _ => 0 := funext fun a => by fin_cases a <;> rfl

/-- The product's dimension record: contract the left operand's columns with the right operand's rows. -/
abbrev dotK : DotDims S5000x512 S512x16 S5000x16 := dot_S5000x512_S512x16_S5000x16_1_0_0_1_n_n

/-! ## The body's stored value at an index -/

theorem lhs_row (j : S5000x16.Idx) (q : dotK.contr.Idx) : (dotK.lhsIdx j q 0).val = (j 0).val := by
  unfold DotDims.lhsIdx
  rw [dif_neg (show ¬(0 : Fin S5000x512.rank) ∈ dotK.lhsBatch by decide), dif_pos (show (0 : Fin S5000x512.rank) ∈ dotK.lhsNonContracting by decide)]
  rfl
theorem lhs_col (j : S5000x16.Idx) (q : dotK.contr.Idx) : (dotK.lhsIdx j q 1).val = (q ⟨0, by decide⟩).val :=
  dotK.lhsIdx_val_of_single rfl j q
theorem rhs_row (j : S5000x16.Idx) (q : dotK.contr.Idx) : (dotK.rhsIdx j q 0).val = (q ⟨0, by decide⟩).val :=
  dotK.rhsIdx_val_of_single rfl j q
theorem rhs_col (j : S5000x16.Idx) (q : dotK.contr.Idx) : (dotK.rhsIdx j q 1).val = (j 1).val := by
  unfold DotDims.rhsIdx
  rw [dif_neg (show ¬(1 : Fin S512x16.rank) ∈ dotK.rhsBatch by decide), dif_pos (show (1 : Fin S512x16.rank) ∈ dotK.rhsNonContracting by decide)]
  rfl

/-- Entry (r, j) of the stored block: the sum over the 512 columns of left(r, q) · right(q, j). The changes of
    float format are the identity on the extended reals, and the accumulator is zero. -/
theorem stored_apply (x0 : Vec Ideal S5000x512 .f32) (x1 : Vec Ideal S512x16 .f32) (j : S5000x16.Idx) :
    k0_pay1 x0 x1 j = ∑ q : Fin 512, x0 (rowAt j q) * x1 (colAt j q) := by
  unfold k0_pay1
  refine (Ideal.matmul_constant_zero_apply dotK none _ _ j).trans ?_
  rw [← Equiv.sum_comp (contrEquiv1 dotK 512 rfl rfl).symm]
  refine Finset.sum_congr rfl fun k _ => ?_
  have hk := contrEquiv1_symm_val dotK 512 rfl rfl k
  have el : dotK.lhsIdx j ((contrEquiv1 dotK 512 rfl rfl).symm k) = rowAt j k := funext fun a => Fin.ext (by
    match a with
    | ⟨0, _⟩ => exact lhs_row _ _
    | ⟨1, _⟩ => exact (lhs_col _ _).trans hk)
  have er : dotK.rhsIdx j ((contrEquiv1 dotK 512 rfl rfl).symm k) = colAt j k := funext fun a => Fin.ext (by
    match a with
    | ⟨0, _⟩ => exact (rhs_row _ _).trans hk
    | ⟨1, _⟩ => exact rhs_col _ _)
  rw [el, er]
  rfl

/-! ## The blocks the body loads, as entries of the arrays -/

/-- The index maps, decided over the 20 points: the left window and the output window are at block (t, 0), the right
    window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the left block at point t is row 5000t + r of the left array. -/
theorem left_apply (c : Dev nD) (t : Fin cfg0.N) (y : S5000x512.Idx) (k : S100000x512.Idx)
    (h0 : (k 0).val = 5000 * t.val + (y 0).val) (h1 : (k 1).val = (y 1).val) :
    (iblk0 V c 0 t : Vec Ideal S5000x512 .f32) y = (V c main_arg0 : S100000x512.Idx → EReal) k := by
  obtain ⟨e0, e1, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (k 0).val; rw [e0, h0]; omega
  | ⟨1, _⟩ => show win0_0.index t (1 : Fin 2) * 512 + 1 * (y 1).val = (k 1).val; rw [e1, h1]; omega

/-- The right block at every point is the whole right array. -/
theorem right_apply (c : Dev nD) (t : Fin cfg0.N) (y : S512x16.Idx) (k : S512x16.Idx)
    (h0 : (k 0).val = (y 0).val) (h1 : (k 1).val = (y 1).val) :
    (iblk0 V c 1 t : Vec Ideal S512x16 .f32) y = (V c main_arg2 : S512x16.Idx → EReal) k := by
  obtain ⟨-, -, e0, e1, -, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * (y 0).val = (k 0).val; rw [e0, h0]; omega
  | ⟨1, _⟩ => show win0_1.index t (1 : Fin 2) * 16 + 1 * (y 1).val = (k 1).val; rw [e1, h1]; omega

/-! ## What a point writes back, the cover, the array -/

/-- What point t writes back is block t of the whole product. -/
theorem flushed_eq (c : Dev nD) (t : Fin cfg0.N) :
    (dat0 V c).flushed 2 t = ((cfg0.win 2).blk t).view.read (Elt Ideal) (matProd16 (V c main_arg0) (V c main_arg2)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  funext j
  show k0_pay1 (iblk0 V c 0 t) (iblk0 V c 1 t) j = matProd16 (V c main_arg0) (V c main_arg2) (((cfg0.win 2).blk t).view.emb j)
  refine (stored_apply _ _ j).trans ?_
  unfold matProd16
  refine Finset.sum_congr rfl fun q _ => ?_
  have hr : ((((cfg0.win 2).blk t).view.emb j) 0).val = 5000 * t.val + (j 0).val := by
    show win0_2.index t (0 : Fin 2) * 5000 + 1 * (j 0).val = _; rw [e0]; omega
  have hc : ((((cfg0.win 2).blk t).view.emb j) 1).val = (j 1).val := by
    show win0_2.index t (1 : Fin 2) * 16 + 1 * (j 1).val = _; rw [e1]; omega
  exact congrArg₂ (· * ·) (left_apply V c t _ _ hr rfl) (right_apply V c t _ _ rfl hc)

/-- An index of the output is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Row i of the output is in the block of point i / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, e0, e1⟩ := idx_facts t
  refine ⟨t, flush0_2 t, ?_⟩
  rw [mem_blk]
  intro a
  have ht : t.val = (i 0).val / 5000 := rfl
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 16 ≤ (i 1).val ∧ (i 1).val < win0_2.index t (1 : Fin 2) * 16 + 16; rw [e1]; omega

/-- The output array after the launch is the whole product of the two arrays the launch was entered with. -/
theorem final (c : Dev nD) : (dat0 V c).arrAt 2 cfg0.N = matProd16 (V c main_arg0) (V c main_arg2) :=
  (dat0 V c).arrAt_eq_of_cover 2 (matProd16 (V c main_arg0) (V c main_arg2)) (fun t _ => flushed_eq V c t) (cover)

end Cert.KernelIdeal.Region0

end
-- ==== Proof.Region1.lean ====
/-
  The second launch: a bias row added to a [100000, 16] array and the rectifier, the rows walked in 20 blocks of 5000.

  At point t the body loads rows 5000t … of the array and the one bias row, and stores max (a(r, j) + b(0, j)) 0,
  which is written back as the same rows of the output. Entry (r, j) depends on entry (5000t + r, j) of the array and
  on entry j of the bias only, so the 20 blocks together are that function of the whole array.
-/
import proofs.«156108_j35880156790911_1_alg».proof.Proof.Gen.KernelIdeal.Frame
import proofs.«156108_j35880156790911_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the buffers when the launch is entered: a parameter, as in the launch's generated half
variable (V : (c : Dev nD) → (b : Ref sig .tc) → Buf (Elt Ideal) ((c : Thread nD τ).loc b))

theorem hz : (![0, 0] : Fin 2 → Nat) = fun _ => 0 := funext fun a => by fin_cases a <;> rfl

/-- The same function as the specification's, with the bias given as a one-row array. -/
def biasReluRow (a : FVec Ideal S100000x16 .f32) (b : FVec Ideal S1x16 .f32) : FVec Ideal S100000x16 .f32 :=
  fun i => max (a i + b (ix2 (0 : Fin 1) ⟨(i 1).val, (i 1).isLt⟩)) (Ideal.ofBits .f32 0x00000000#32)

/-! ## The body's stored value at an index -/

/-- Entry (r, j) of the stored block: max (a(r, j) + b(0, j)) 0. The two casts are to the shape the value already
    has; the bias row is laid along every row. -/
theorem stored_apply (x0 : Vec Ideal S5000x16 .f32) (x1 : Vec Ideal S1x16 .f32) (p : Fin 5000) (q : Fin 16) :
    k1_pay1 x0 x1 (ix2 p q) = max (x0 (ix2 p q) + x1 (ix2 (0 : Fin 1) q)) (Ideal.ofBits .f32 0x00000000#32) := by
  unfold k1_pay1
  show max ((shapeCast S5000x16 x0 shapeCasts_S5000x16_S5000x16) (ix2 p q) + (broadcastTo S5000x16 (shapeCast S1x16 x1 shapeCasts_S1x16_S1x16) broadcasts_S1x16_S5000x16) (ix2 p q)) _ = _
  rw [shapeCast_self, shapeCast_self]
  refine congrArg (fun z => max (x0 (ix2 p q) + z) _) ?_
  exact broadcastTo_1b_ab_apply x1 broadcasts_S1x16_S5000x16 p q

/-! ## The blocks the body loads, as entries of the arrays -/

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of the array's block at point t is row 5000t + r of the array. -/
theorem left_apply (c : Dev nD) (t : Fin cfg1.N) (y : S5000x16.Idx) (k : S100000x16.Idx)
    (h0 : (k 0).val = 5000 * t.val + (y 0).val) (h1 : (k 1).val = (y 1).val) :
    (iblk1 V c 0 t : Vec Ideal S5000x16 .f32) y = (V c main_v44 : S100000x16.Idx → EReal) k := by
  obtain ⟨e0, e1, -, -, -, -⟩ := idx_facts t
  unfold iblk1
  rw [View.read_apply]
  show V c main_v44 _ = V c main_v44 _
  refine congrArg (V c main_v44) (funext fun a => Fin.ext ?_)
  match a with
  | ⟨0, _⟩ => show win1_0.index t (0 : Fin 2) * 5000 + 1 * (y 0).val = (k 0).val; rw [e0, h0]; omega
  | ⟨1, _⟩ => show win1_0.index t (1 : Fin 2) * 16 + 1 * (y 1).val = (k 1).val; rw [e1, h1]; omega

/-- The bias block at every point is the whole bias row. -/
theorem right_apply (c : Dev nD) (t : Fin cfg1.N) (y : S1x16.Idx) (k : S1x16.Idx)
    (h0 : (k 0).val = (y 0).val) (h1 : (k 1).val = (y 1).val) :
    (iblk1 V c 1 t : Vec Ideal S1x16 .f32) y = (V c main_v45 : S1x16.Idx → EReal) k := by
  obtain ⟨-, -, e0, e1, -, -⟩ := idx_facts t
  unfold iblk1
  rw [View.read_apply]
  show V c main_v45 _ = V c main_v45 _
  refine congrArg (V c main_v45) (funext fun a => Fin.ext ?_)
  match a with
  | ⟨0, _⟩ => show win1_1.index t (0 : Fin 2) * 1 + 1 * (y 0).val = (k 0).val; rw [e0, h0]; omega
  | ⟨1, _⟩ => show win1_1.index t (1 : Fin 2) * 16 + 1 * (y 1).val = (k 1).val; rw [e1, h1]; omega

/-! ## What a point writes back, the cover, the array -/

theorem flushed_eq (c : Dev nD) (t : Fin cfg1.N) :
    (dat1 V c).flushed 2 t = ((cfg1.win 2).blk t).view.read (Elt Ideal) (biasReluRow (V c main_v44) (V c main_v45)) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  funext j
  obtain ⟨p, q, rfl⟩ : ∃ (p : Fin 5000) (q : Fin 16), j = ix2 p q := ⟨j 0, j 1, eq_ix2 j⟩
  show k1_pay1 (iblk1 V c 0 t) (iblk1 V c 1 t) (ix2 p q) = biasReluRow (V c main_v44) (V c main_v45) (((cfg1.win 2).blk t).view.emb (ix2 p q))
  refine (stored_apply _ _ p q).trans ?_
  unfold biasReluRow
  have hr : ((((cfg1.win 2).blk t).view.emb (ix2 p q)) 0).val = 5000 * t.val + p.val := by
    show win1_2.index t (0 : Fin 2) * 5000 + 1 * p.val = _; rw [e0]; omega
  have hc : ((((cfg1.win 2).blk t).view.emb (ix2 p q)) 1).val = q.val := by
    show win1_2.index t (1 : Fin 2) * 16 + 1 * q.val = _; rw [e1]; omega
  refine congrArg₂ (fun u v => max (u + v) _) (left_apply V c t _ _ hr hc) (right_apply V c t _ _ rfl hc)

theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v46).slice (win1_2.rect t)).set ↔ _
  rw [View.set_slice_whole, Rect.mem_set_unit]
  exact Iff.rfl

theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨-, -, -, -, e0, e1⟩ := idx_facts t
  refine ⟨t, flush1_2 t, ?_⟩
  rw [mem_blk]
  intro a
  have ht : t.val = (i 0).val / 5000 := rfl
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 16 ≤ (i 1).val ∧ (i 1).val < win1_2.index t (1 : Fin 2) * 16 + 16; rw [e1]; omega

/-- The output array after the launch: bias and rectifier of the array the launch was entered with. -/
theorem final (c : Dev nD) : (dat1 V c).arrAt 2 cfg1.N = biasReluRow (V c main_v44) (V c main_v45) :=
  (dat1 V c).arrAt_eq_of_cover 2 (biasReluRow (V c main_v44) (V c main_v45)) (fun t _ => flushed_eq V c t) (cover)

end Cert.KernelIdeal.Region1

end
-- ==== Proof.Region2.lean ====
/-
  The third launch: a [100000, 16] array times a [16, 2] array, the rows walked in 20 blocks of 5000.

  At point t the body loads rows 5000t … 5000t + 4999 of the left array and the whole right array, multiplies them into
  a zero accumulator, and stores the [5000, 2] product, which is written back as rows 5000t … of the output. Entry
  (r, j) of that product is the sum over the 16 columns q of left(5000t + r, q) · right(q, j): the entry of the whole
  product at row 5000t + r. The 20 blocks tile the output's rows, so the output array ends as the whole product.
-/
import proofs.«156108_j35880156790911_1_alg».proof.Proof.Gen.KernelIdeal.Frame
import proofs.«156108_j35880156790911_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the buffers when the launch is entered: a parameter, as in the launch's generated half
variable (V : (c : Dev nD) → (b : Ref sig .tc) → Buf (Elt Ideal) ((c : Thread nD τ).loc b))

theorem hz : (![0, 0] : Fin 2 → Nat) = fun _ => 0 := funext fun a => by fin_cases a <;> rfl

/-- The product's dimension record: contract the left operand's columns with the right operand's rows. -/
abbrev dotK : DotDims S5000x16 S16x2 S5000x2 := dot_S5000x16_S16x2_S5000x2_1_0_0_1_n_n

/-! ## The body's stored value at an index -/

theorem lhs_row (j : S5000x2.Idx) (q : dotK.contr.Idx) : (dotK.lhsIdx j q 0).val = (j 0).val := by
  unfold DotDims.lhsIdx
  rw [dif_neg (show ¬(0 : Fin S5000x16.rank) ∈ dotK.lhsBatch by decide), dif_pos (show (0 : Fin S5000x16.rank) ∈ dotK.lhsNonContracting by decide)]
  rfl
theorem lhs_col (j : S5000x2.Idx) (q : dotK.contr.Idx) : (dotK.lhsIdx j q 1).val = (q ⟨0, by decide⟩).val :=
  dotK.lhsIdx_val_of_single rfl j q
theorem rhs_row (j : S5000x2.Idx) (q : dotK.contr.Idx) : (dotK.rhsIdx j q 0).val = (q ⟨0, by decide⟩).val :=
  dotK.rhsIdx_val_of_single rfl j q
theorem rhs_col (j : S5000x2.Idx) (q : dotK.contr.Idx) : (dotK.rhsIdx j q 1).val = (j 1).val := by
  unfold DotDims.rhsIdx
  rw [dif_neg (show ¬(1 : Fin S16x2.rank) ∈ dotK.rhsBatch by decide), dif_pos (show (1 : Fin S16x2.rank) ∈ dotK.rhsNonContracting by decide)]
  rfl

/-- Entry (r, j) of the stored block: the sum over the 16 columns of left(r, q) · right(q, j). The changes of
    float format are the identity on the extended reals, and the accumulator is zero. -/
theorem stored_apply (x0 : Vec Ideal S5000x16 .f32) (x1 : Vec Ideal S16x2 .f32) (j : S5000x2.Idx) :
    k2_pay1 x0 x1 j = ∑ q : Fin 16, x0 (rowAt j q) * x1 (colAt j q) := by
  unfold k2_pay1
  show matmul (F := Ideal) dotK none (truncf (F := Ideal) .bf16 (shapeCast S5000x16 x0 shapeCasts_S5000x16_S5000x16) bitsLt_bf16_f32) (truncf (F := Ideal) .bf16 x1 bitsLt_bf16_f32) (constant (F := Ideal) S5000x2 .f32 0x00000000#32) j = _
  rw [shapeCast_self]
  refine (Ideal.matmul_constant_zero_apply dotK none _ _ j).trans ?_
  rw [← Equiv.sum_comp (contrEquiv1 dotK 16 rfl rfl).symm]
  refine Finset.sum_congr rfl fun k _ => ?_
  have hk := contrEquiv1_symm_val dotK 16 rfl rfl k
  have el : dotK.lhsIdx j ((contrEquiv1 dotK 16 rfl rfl).symm k) = rowAt j k := funext fun a => Fin.ext (by
    match a with
    | ⟨0, _⟩ => exact lhs_row _ _
    | ⟨1, _⟩ => exact (lhs_col _ _).trans hk)
  have er : dotK.rhsIdx j ((contrEquiv1 dotK 16 rfl rfl).symm k) = colAt j k := funext fun a => Fin.ext (by
    match a with
    | ⟨0, _⟩ => exact (rhs_row _ _).trans hk
    | ⟨1, _⟩ => exact rhs_col _ _)
  rw [el, er]
  rfl

/-! ## The blocks the body loads, as entries of the arrays -/

/-- The index maps, decided over the 20 points: the left window and the output window are at block (t, 0), the right
    window always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of the left block at point t is row 5000t + r of the left array. -/
theorem left_apply (c : Dev nD) (t : Fin cfg2.N) (y : S5000x16.Idx) (k : S100000x16.Idx)
    (h0 : (k 0).val = 5000 * t.val + (y 0).val) (h1 : (k 1).val = (y 1).val) :
    (iblk2 V c 0 t : Vec Ideal S5000x16 .f32) y = (V c main_v46 : S100000x16.Idx → EReal) k := by
  obtain ⟨e0, e1, -, -, -, -⟩ := idx_facts t
  unfold iblk2
  rw [View.read_apply]
  show V c main_v46 _ = V c main_v46 _
  refine congrArg (V c main_v46) (funext fun a => Fin.ext ?_)
  match a with
  | ⟨0, _⟩ => show win2_0.index t (0 : Fin 2) * 5000 + 1 * (y 0).val = (k 0).val; rw [e0, h0]; omega
  | ⟨1, _⟩ => show win2_0.index t (1 : Fin 2) * 16 + 1 * (y 1).val = (k 1).val; rw [e1, h1]; omega

/-- The right block at every point is the whole right array. -/
theorem right_apply (c : Dev nD) (t : Fin cfg2.N) (y : S16x2.Idx) (k : S16x2.Idx)
    (h0 : (k 0).val = (y 0).val) (h1 : (k 1).val = (y 1).val) :
    (iblk2 V c 1 t : Vec Ideal S16x2 .f32) y = (V c main_arg4 : S16x2.Idx → EReal) k := by
  obtain ⟨-, -, e0, e1, -, -⟩ := idx_facts t
  unfold iblk2
  rw [View.read_apply]
  show V c main_arg4 _ = V c main_arg4 _
  refine congrArg (V c main_arg4) (funext fun a => Fin.ext ?_)
  match a with
  | ⟨0, _⟩ => show win2_1.index t (0 : Fin 2) * 16 + 1 * (y 0).val = (k 0).val; rw [e0, h0]; omega
  | ⟨1, _⟩ => show win2_1.index t (1 : Fin 2) * 2 + 1 * (y 1).val = (k 1).val; rw [e1, h1]; omega

/-! ## What a point writes back, the cover, the array -/

/-- What point t writes back is block t of the whole product. -/
theorem flushed_eq (c : Dev nD) (t : Fin cfg2.N) :
    (dat2 V c).flushed 2 t = ((cfg2.win 2).blk t).view.read (Elt Ideal) (matProd2 (V c main_v46) (V c main_arg4)) := by
  obtain ⟨-, -, -, -, e0, e1⟩ := idx_facts t
  show (cfg2.win 2).cut (grid2.coords t) ((dat2 V c).after 2 t) = _
  rw [after2_2]
  unfold out2_2
  rw [View.canon_unit_zero hz]
  simp only [View.ld_unit_zero (S := S5000x16) hz, View.ld_unit_zero (S := S16x2) hz]
  funext j
  show k2_pay1 (iblk2 V c 0 t) (iblk2 V c 1 t) j = matProd2 (V c main_v46) (V c main_arg4) (((cfg2.win 2).blk t).view.emb j)
  refine (stored_apply _ _ j).trans ?_
  unfold matProd2
  refine Finset.sum_congr rfl fun q _ => ?_
  have hr : ((((cfg2.win 2).blk t).view.emb j) 0).val = 5000 * t.val + (j 0).val := by
    show win2_2.index t (0 : Fin 2) * 5000 + 1 * (j 0).val = _; rw [e0]; omega
  have hc : ((((cfg2.win 2).blk t).view.emb j) 1).val = (j 1).val := by
    show win2_2.index t (1 : Fin 2) * 2 + 1 * (j 1).val = _; rw [e1]; omega
  exact congrArg₂ (· * ·) (left_apply V c t _ _ hr rfl) (right_apply V c t _ _ rfl hc)

/-- An index of the output is in point t's block iff each coordinate is in the block's range on its axis. -/
theorem mem_blk (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- Row i of the output is in the block of point i / 5000. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  let t : Fin cfg2.N := ⟨(i 0).val / 5000, by rw [hN]; omega⟩
  obtain ⟨-, -, -, -, e0, e1⟩ := idx_facts t
  refine ⟨t, flush2_2 t, ?_⟩
  rw [mem_blk]
  intro a
  have ht : t.val = (i 0).val / 5000 := rfl
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 2 ≤ (i 1).val ∧ (i 1).val < win2_2.index t (1 : Fin 2) * 2 + 2; rw [e1]; omega

/-- The output array after the launch is the whole product of the two arrays the launch was entered with. -/
theorem final (c : Dev nD) : (dat2 V c).arrAt 2 cfg2.N = matProd2 (V c main_v46) (V c main_arg4) :=
  (dat2 V c).arrAt_eq_of_cover 2 (matProd2 (V c main_v46) (V c main_arg4)) (fun t _ => flushed_eq V c t) (cover)

end Cert.KernelIdeal.Region2

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Region3.lean ====
/-
  The fourth launch: a bias row added to a [100000, 2] array and the logarithm of the softmax along each row, the rows
  walked in 20 blocks of 5000.

  At point t the body loads rows 5000t … of the array and the one bias row. With y_q = a(r, q) + b(0, q) the two
  logits of a row and M the larger of them (a lane reduction by max from −∞), it stores (y_j − M) − log Σ_q exp (y_q − M).
  Each row of the stored block depends on the same row of the array and on the bias only, so the 20 blocks together
  are that function of the whole array.
-/
import proofs.«156108_j35880156790911_1_alg».proof.Proof.Gen.KernelIdeal.Frame
import proofs.«156108_j35880156790911_1_alg».proof.Proof.Spec
import proofs.«156108_j35880156790911_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the buffers when the launch is entered: a parameter, as in the launch's generated half
variable (V : (c : Dev nD) → (b : Ref sig .tc) → Buf (Elt Ideal) ((c : Thread nD τ).loc b))

theorem hz : (![0, 0] : Fin 2 → Nat) = fun _ => 0 := funext fun a => by fin_cases a <;> rfl

open Cert.Keepdims

/-- A row's two logits, the bias given as a one-row array. -/
abbrev logitsRow (a : FVec Ideal S100000x2 .f32) (b : FVec Ideal S1x2 .f32) (i : S100000x2.Idx) (q : Fin 2) : EReal :=
  a (rowAt i q) + b (ix2 (0 : Fin 1) q)

/-- The larger of a row's two logits, as a fold of max from −∞. -/
abbrev rowMaxRow (a : FVec Ideal S100000x2 .f32) (b : FVec Ideal S1x2 .f32) (i : S100000x2.Idx) : EReal :=
  (Finset.univ : Finset (Fin 2)).fold max (Ideal.ofBits .f32 0xFF800000#32) (logitsRow a b i)

/-- The same function as the specification's, with the bias given as a one-row array. -/
def biasLogSoftmaxRow (a : FVec Ideal S100000x2 .f32) (b : FVec Ideal S1x2 .f32) : FVec Ideal S100000x2 .f32 :=
  fun i => (logitsRow a b i ⟨(i 1).val, (i 1).isLt⟩ - rowMaxRow a b i)
    - Ideal.log (∑ q : Fin 2, Ideal.exp (logitsRow a b i q - rowMaxRow a b i))

/-! ## The two lane reductions at a row -/

/-- The index the reduction inserts: row p, lane k. -/
theorem lift_eq (p : Fin 5000) (k : Fin 2) : reduces_S5000x2_S5000.lift (ix1 p) k = ix2 p k :=
  funext fun a => Fin.ext (by match a with | ⟨0, _⟩ => rfl | ⟨1, _⟩ => rfl)

/-- A row's maximum: the fold of max from −∞ over the row's two lanes. -/
theorem lane_max (v : FVec Ideal S5000x2 .f32) (hφ : FKind.Formats .f32)
    (hacc : (0xFF800000#32 : BitVec 32) = FKind.maximumf.neutral .f32 hφ) (p : Fin 5000) :
    multiReduction (F := Ideal) .maximumf [1] S5000 v 0xFF800000#32 reduces_S5000x2_S5000 hφ hacc (ix1 p)
      = (Finset.univ : Finset (Fin 2)).fold max (Ideal.ofBits .f32 0xFF800000#32) (fun k => v (ix2 p k)) := by
  refine (Ideal.multiReduction_maximumf_single v 0xFF800000#32 reduces_S5000x2_S5000 hφ hacc (ix1 p)).trans ?_
  refine congrArg (fun f => (Finset.univ : Finset (Fin 2)).fold max (Ideal.ofBits .f32 0xFF800000#32) f) (funext fun k => ?_)
  exact congrArg v (lift_eq p k)

/-- A row's sum: the sum over the row's two lanes. -/
theorem lane_sum (v : FVec Ideal S5000x2 .f32) (hφ : FKind.Formats .f32)
    (hacc : (0x00000000#32 : BitVec 32) = FKind.add.neutral .f32 hφ) (p : Fin 5000) :
    multiReduction (F := Ideal) .add [1] S5000 v 0x00000000#32 reduces_S5000x2_S5000 hφ hacc (ix1 p) = ∑ k : Fin 2, v (ix2 p k) := by
  refine (Ideal.multiReduction_add_single v 0x00000000#32 reduces_S5000x2_S5000 hφ hacc (ix1 p)).trans ?_
  exact Finset.sum_congr rfl fun k _ => congrArg v (lift_eq p k)

/-- A per-row value kept as a column and laid along the two lanes reads, at (p, q), the value of row p. -/
theorem keep_apply (w : FVec Ideal S5000 .f32) (p : Fin 5000) (q : Fin 2) :
    broadcastTo S5000x2 (shapeCast S5000x1 w shapeCasts_S5000_S5000x1) broadcasts_S5000x1_S5000x2 (ix2 p q) = w (ix1 p) :=
  (broadcastTo_a1_ab_apply _ broadcasts_S5000x1_S5000x2 p q).trans (shapeCast_a_a1_apply w shapeCasts_S5000_S5000x1 p 0)

/-! ## The body's stored value at an index -/

/-- The logits of the loaded block: entry (p, k) is a(p, k) + b(0, k). -/
theorem logits_apply (x0 : FVec Ideal S5000x2 .f32) (x1 : FVec Ideal S1x2 .f32) (p : Fin 5000) (k : Fin 2) :
    addf (F := Ideal) (φ := .f32) (shapeCast S5000x2 x0 shapeCasts_S5000x2_S5000x2) (broadcastTo S5000x2 (shapeCast S1x2 x1 shapeCasts_S1x2_S1x2) broadcasts_S1x2_S5000x2) (ix2 p k)
      = x0 (ix2 p k) + x1 (ix2 (0 : Fin 1) k) := by
  show (shapeCast S5000x2 x0 shapeCasts_S5000x2_S5000x2) (ix2 p k) + (broadcastTo S5000x2 (shapeCast S1x2 x1 shapeCasts_S1x2_S1x2) broadcasts_S1x2_S5000x2) (ix2 p k) = _
  rw [shapeCast_self, shapeCast_self]
  exact congrArg (x0 (ix2 p k) + ·) (broadcastTo_1b_ab_apply x1 broadcasts_S1x2_S5000x2 p k)

/-- Entry (p, q) of the stored block: (y_q − M) − log Σ_k exp (y_k − M), y the row's logits, M their maximum. -/
theorem stored_apply (x0 : Vec Ideal S5000x2 .f32) (x1 : Vec Ideal S1x2 .f32) (p : Fin 5000) (q : Fin 2) :
    k3_pay1 x0 x1 (ix2 p q)
      = ((x0 (ix2 p q) + x1 (ix2 (0 : Fin 1) q))
          - (Finset.univ : Finset (Fin 2)).fold max (Ideal.ofBits .f32 0xFF800000#32) (fun k => x0 (ix2 p k) + x1 (ix2 (0 : Fin 1) k)))
        - Ideal.log (∑ k : Fin 2, Ideal.exp ((x0 (ix2 p k) + x1 (ix2 (0 : Fin 1) k))
          - (Finset.univ : Finset (Fin 2)).fold max (Ideal.ofBits .f32 0xFF800000#32) (fun k => x0 (ix2 p k) + x1 (ix2 (0 : Fin 1) k)))) := by
  unfold k3_pay1
  dsimp only
  -- the logits, named
  generalize hy : addf (F := Ideal) (φ := .f32) (shapeCast S5000x2 x0 shapeCasts_S5000x2_S5000x2) (broadcastTo S5000x2 (shapeCast S1x2 x1 shapeCasts_S1x2_S1x2) broadcasts_S1x2_S5000x2) = y
  have ey : ∀ k : Fin 2, y (ix2 p k) = x0 (ix2 p k) + x1 (ix2 (0 : Fin 1) k) := fun k => by rw [← hy]; exact logits_apply x0 x1 p k
  -- the row maximum, named
  generalize hM : multiReduction (F := Ideal) .maximumf [1] S5000 y 0xFF800000#32 reduces_S5000x2_S5000 (.inl rfl) rfl = M
  have eM : M (ix1 p) = (Finset.univ : Finset (Fin 2)).fold max (Ideal.ofBits .f32 0xFF800000#32) (fun k => x0 (ix2 p k) + x1 (ix2 (0 : Fin 1) k)) := by
    rw [← hM]
    refine (lane_max y _ _ p).trans ?_
    exact congrArg (fun f => (Finset.univ : Finset (Fin 2)).fold max (Ideal.ofBits .f32 0xFF800000#32) f) (funext ey)
  -- the shifted logits, named
  generalize hd : subf (F := Ideal) y (broadcastTo S5000x2 (shapeCast S5000x1 M shapeCasts_S5000_S5000x1) broadcasts_S5000x1_S5000x2) = d
  have ed : ∀ k : Fin 2, d (ix2 p k) = (x0 (ix2 p k) + x1 (ix2 (0 : Fin 1) k))
      - (Finset.univ : Finset (Fin 2)).fold max (Ideal.ofBits .f32 0xFF800000#32) (fun k => x0 (ix2 p k) + x1 (ix2 (0 : Fin 1) k)) := fun k => by
    rw [← hd]
    show y (ix2 p k) - (broadcastTo S5000x2 (shapeCast S5000x1 M shapeCasts_S5000_S5000x1) broadcasts_S5000x1_S5000x2) (ix2 p k) = _
    rw [keep_apply M p k, ey k, eM]
  -- the sum of exponentials, named
  generalize hS : multiReduction (F := Ideal) .add [1] S5000 (exp (F := Ideal) d) 0x00000000#32 reduces_S5000x2_S5000 (.inl rfl) rfl = S
  have eS : S (ix1 p) = ∑ k : Fin 2, Ideal.exp ((x0 (ix2 p k) + x1 (ix2 (0 : Fin 1) k))
      - (Finset.univ : Finset (Fin 2)).fold max (Ideal.ofBits .f32 0xFF800000#32) (fun k => x0 (ix2 p k) + x1 (ix2 (0 : Fin 1) k))) := by
    rw [← hS]
    refine (lane_sum (exp (F := Ideal) d) _ _ p).trans ?_
    exact Finset.sum_congr rfl fun k _ => (show (exp (F := Ideal) d) (ix2 p k) = Ideal.exp (d (ix2 p k)) from rfl).trans (congrArg Ideal.exp (ed k))
  show d (ix2 p q) - (broadcastTo S5000x2 (log (F := Ideal) (shapeCast S5000x1 S shapeCasts_S5000_S5000x1)) broadcasts_S5000x1_S5000x2) (ix2 p q) = _
  rw [ed q]
  refine congrArg₂ (fun u v : EReal => u - v) rfl ?_
  refine (broadcastTo_a1_ab_apply _ broadcasts_S5000x1_S5000x2 p q).trans ?_
  show Ideal.log ((shapeCast S5000x1 S shapeCasts_S5000_S5000x1) (ix2 p (0 : Fin 1))) = _
  rw [shapeCast_a_a1_apply S shapeCasts_S5000_S5000x1 p 0, eS]

/-! ## The blocks the body loads, as entries of the arrays -/

theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of the array's block at point t is row 5000t + r of the array. -/
theorem left_apply (c : Dev nD) (t : Fin cfg3.N) (y : S5000x2.Idx) (k : S100000x2.Idx)
    (h0 : (k 0).val = 5000 * t.val + (y 0).val) (h1 : (k 1).val = (y 1).val) :
    (iblk3 V c 0 t : Vec Ideal S5000x2 .f32) y = (V c main_v60 : S100000x2.Idx → EReal) k := by
  obtain ⟨e0, e1, -, -, -, -⟩ := idx_facts t
  unfold iblk3
  rw [View.read_apply]
  show V c main_v60 _ = V c main_v60 _
  refine congrArg (V c main_v60) (funext fun a => Fin.ext ?_)
  match a with
  | ⟨0, _⟩ => show win3_0.index t (0 : Fin 2) * 5000 + 1 * (y 0).val = (k 0).val; rw [e0, h0]; omega
  | ⟨1, _⟩ => show win3_0.index t (1 : Fin 2) * 2 + 1 * (y 1).val = (k 1).val; rw [e1, h1]; omega

/-- The bias block at every point is the whole bias row. -/
theorem right_apply (c : Dev nD) (t : Fin cfg3.N) (y : S1x2.Idx) (k : S1x2.Idx)
    (h0 : (k 0).val = (y 0).val) (h1 : (k 1).val = (y 1).val) :
    (iblk3 V c 1 t : Vec Ideal S1x2 .f32) y = (V c main_v61 : S1x2.Idx → EReal) k := by
  obtain ⟨-, -, e0, e1, -, -⟩ := idx_facts t
  unfold iblk3
  rw [View.read_apply]
  show V c main_v61 _ = V c main_v61 _
  refine congrArg (V c main_v61) (funext fun a => Fin.ext ?_)
  match a with
  | ⟨0, _⟩ => show win3_1.index t (0 : Fin 2) * 1 + 1 * (y 0).val = (k 0).val; rw [e0, h0]; omega
  | ⟨1, _⟩ => show win3_1.index t (1 : Fin 2) * 2 + 1 * (y 1).val = (k 1).val; rw [e1, h1]; omega

/-! ## What a point writes back, the cover, the array -/

theorem flushed_eq (c : Dev nD) (t : Fin cfg3.N) :
    (dat3 V c).flushed 2 t = ((cfg3.win 2).blk t).view.read (Elt Ideal) (biasLogSoftmaxRow (V c main_v60) (V c main_v61)) := by
  obtain ⟨-, -, -, -, e0, e1⟩ := idx_facts t
  show (cfg3.win 2).cut (grid3.coords t) ((dat3 V c).after 2 t) = _
  rw [after3_2]
  unfold out3_2
  rw [View.canon_unit_zero hz]
  simp only [View.ld_unit_zero (S := S5000x2) hz, View.ld_unit_zero (S := S1x2) hz]
  funext j
  obtain ⟨p, q, rfl⟩ : ∃ (p : Fin 5000) (q : Fin 2), j = ix2 p q := ⟨j 0, j 1, eq_ix2 j⟩
  show k3_pay1 (iblk3 V c 0 t) (iblk3 V c 1 t) (ix2 p q) = biasLogSoftmaxRow (V c main_v60) (V c main_v61) (((cfg3.win 2).blk t).view.emb (ix2 p q))
  refine (stored_apply _ _ p q).trans ?_
  unfold biasLogSoftmaxRow
  have hr : ((((cfg3.win 2).blk t).view.emb (ix2 p q)) 0).val = 5000 * t.val + p.val := by
    show win3_2.index t (0 : Fin 2) * 5000 + 1 * p.val = _; rw [e0]; omega
  have hc : ((((cfg3.win 2).blk t).view.emb (ix2 p q)) 1).val = q.val := by
    show win3_2.index t (1 : Fin 2) * 2 + 1 * q.val = _; rw [e1]; omega
  -- the loaded blocks' entries are the arrays' entries at the block's row
  have e0 : ∀ k : Fin 2, (iblk3 V c 0 t : Vec Ideal S5000x2 .f32) (ix2 p k)
      = (V c main_v60 : S100000x2.Idx → EReal) (rowAt (((cfg3.win 2).blk t).view.emb (ix2 p q)) k) := fun k =>
    left_apply V c t (ix2 p k) (rowAt (((cfg3.win 2).blk t).view.emb (ix2 p q)) k) hr rfl
  have e1 : ∀ k : Fin 2, (iblk3 V c 1 t : Vec Ideal S1x2 .f32) (ix2 (0 : Fin 1) k)
      = (V c main_v61 : S1x2.Idx → EReal) (ix2 (0 : Fin 1) k) := fun k =>
    right_apply V c t (ix2 (0 : Fin 1) k) (ix2 (0 : Fin 1) k) rfl rfl
  have eq' : (⟨((((cfg3.win 2).blk t).view.emb (ix2 p q)) 1).val, ((((cfg3.win 2).blk t).view.emb (ix2 p q)) 1).isLt⟩ : Fin 2) = q := Fin.ext hc
  rw [eq']
  simp only [e0, e1]
  try rfl

theorem mem_blk (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v62).slice (win3_2.rect t)).set ↔ _
  rw [View.set_slice_whole, Rect.mem_set_unit]
  exact Iff.rfl

theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  let t : Fin cfg3.N := ⟨(i 0).val / 5000, by rw [hN]; omega⟩
  obtain ⟨-, -, -, -, e0, e1⟩ := idx_facts t
  refine ⟨t, flush3_2 t, ?_⟩
  rw [mem_blk]
  intro a
  have ht : t.val = (i 0).val / 5000 := rfl
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 2 ≤ (i 1).val ∧ (i 1).val < win3_2.index t (1 : Fin 2) * 2 + 2; rw [e1]; omega

/-- The output array after the launch: bias and log-softmax of the array the launch was entered with. -/
theorem final (c : Dev nD) : (dat3 V c).arrAt 2 cfg3.N = biasLogSoftmaxRow (V c main_v60) (V c main_v61) :=
  (dat3 V c).arrAt_eq_of_cover 2 (biasLogSoftmaxRow (V c main_v60) (V c main_v61)) (fun t _ => flushed_eq V c t) (cover)

end Cert.KernelIdeal.Region3

end
-- ==== Proof.KernelValue.lean ====
/-
  The idealized kernel's result as one function of its six arguments.

  The run goes through ten boundaries. Followed through them, the buffers the result depends on hold:
    after the first three host stretches   the two node lists and the per-edge normalisation, functions of the edge list;
    after the first launch                 the first layer's product of the features and the first weights;
    after the fourth host stretch          that product gathered, scaled and added up (16 wide), and the first bias as a row;
    after the second launch                its bias and rectifier;
    after the third launch                 the second layer's product with the second weights;
    after the fifth host stretch           that product gathered, scaled and added up (2 wide), and the second bias as a row;
    after the fourth launch                its bias and the logarithm of the softmax: the result.
  A buffer that a stretch or a launch does not write keeps its contents across it. The host stretches are carried as the
  reference's own staged functions (RefChain): their text is the same, only the names of the shapes and dimension records
  are the kernel's own copies.
-/
import proofs.«156108_j35880156790911_1_alg».proof.Proof.Region0
import proofs.«156108_j35880156790911_1_alg».proof.Proof.Region1
import proofs.«156108_j35880156790911_1_alg».proof.Proof.Region2
import proofs.«156108_j35880156790911_1_alg».proof.Proof.Region3
import proofs.«156108_j35880156790911_1_alg».proof.Proof.KernelRun
import proofs.«156108_j35880156790911_1_alg».proof.Proof.RefChain
import proofs.«156108_j35880156790911_1_alg».proof.Proof.LibConcat2
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.Gcn Cert.Concat2

variable (m : (ℓ : Loc nD τ sig) → Buf (Elt Ideal) ℓ) (ρ : Dev nD → PrngReg)

local notation "rowL" => Cert.ReferenceIdeal.Chain.rowList (F := Ideal)
local notation "colL" => Cert.ReferenceIdeal.Chain.colList (F := Ideal)
local notation "normL" => Cert.ReferenceIdeal.Chain.normOf (F := Ideal)
local notation "agg16" => Cert.ReferenceIdeal.Chain.aggregate16 (F := Ideal)
local notation "agg2" => Cert.ReferenceIdeal.Chain.aggregate2 (F := Ideal)

/-! ## After the first three host stretches -/

theorem b3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem b3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
theorem b3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem b3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem b3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

/-- The row nodes' list. -/
theorem b3_rows (c : Dev nD) : W3 m ρ c (Proc.devRef .tc main_v3) = rowL (m ((c : Thread nD τ).loc main_arg1)) := by
  show after hostOps0_2 (after hostOps0_1 (after hostOps0 (W0 m ρ c))) (Proc.devRef .tc main_v3) = _
  simp only [hostOps0, hostOps0_1, hostOps0_2, concatenate_pair_eq]
  after_results_simp <;> rfl
/-- The column nodes' list. -/
theorem b3_cols (c : Dev nD) : W3 m ρ c (Proc.devRef .tc main_v7) = colL (m ((c : Thread nD τ).loc main_arg1)) := by
  show after hostOps0_2 (after hostOps0_1 (after hostOps0 (W0 m ρ c))) (Proc.devRef .tc main_v7) = _
  simp only [hostOps0, hostOps0_1, hostOps0_2, concatenate_pair_eq]
  after_results_simp <;> rfl
/-! The normalisation, through the three stretches one at a time: the edge counts' sign and reciprocal square root after
    the first; the choice between the reciprocal square root and zero after the second; the two factors gathered and
    multiplied after the third. -/

theorem s0_pos (c : Dev nD) : after hostOps0 (W0 m ρ c) (Proc.devRef .tc main_v13)
    = Cert.ReferenceIdeal.Chain.degPositive (F := Ideal) (rowL (m ((c : Thread nD τ).loc main_arg1))) := by
  simp only [hostOps0, concatenate_pair_eq]
  after_results_simp <;> rfl
theorem s0_isqrt (c : Dev nD) : after hostOps0 (W0 m ρ c) (Proc.devRef .tc main_v14)
    = Cert.ReferenceIdeal.Chain.degIsqrt (F := Ideal) (rowL (m ((c : Thread nD τ).loc main_arg1))) := by
  simp only [hostOps0, concatenate_pair_eq]
  after_results_simp <;> rfl
theorem s0_zero (c : Dev nD) : after hostOps0 (W0 m ρ c) (Proc.devRef .tc main_cst_2) = constant (F := Ideal) S_ .f32 0x00000000#32 := by
  after_results_simp <;> rfl
theorem s0_rows (c : Dev nD) : after hostOps0 (W0 m ρ c) (Proc.devRef .tc main_v3) = rowL (m ((c : Thread nD τ).loc main_arg1)) := by
  simp only [hostOps0, concatenate_pair_eq]
  after_results_simp <;> rfl
theorem s0_cols (c : Dev nD) : after hostOps0 (W0 m ρ c) (Proc.devRef .tc main_v7) = colL (m ((c : Thread nD τ).loc main_arg1)) := by
  simp only [hostOps0, concatenate_pair_eq]
  after_results_simp <;> rfl

theorem s1_where (X : Valuation τ sig (Elt Ideal)) : after hostOps0_1 X (Proc.devRef .tc main_v15)
    = Cert.ReferenceIdeal.Chain.whereSel (F := Ideal) (X (Proc.devRef .tc main_v13)) (X (Proc.devRef .tc main_v14)) (X (Proc.devRef .tc main_cst_2)) := by
  after_results_simp <;> rfl
theorem s1_rows (X : Valuation τ sig (Elt Ideal)) : after hostOps0_1 X (Proc.devRef .tc main_v3) = (X (Proc.devRef .tc main_v3)) := by
  after_results_simp <;> rfl
theorem s1_cols (X : Valuation τ sig (Elt Ideal)) : after hostOps0_1 X (Proc.devRef .tc main_v7) = (X (Proc.devRef .tc main_v7)) := by
  after_results_simp <;> rfl

theorem s2_norm (X : Valuation τ sig (Elt Ideal)) : after hostOps0_2 X (Proc.devRef .tc main_v30)
    = Cert.ReferenceIdeal.Chain.normFrom (F := Ideal) (X (Proc.devRef .tc main_v15)) (X (Proc.devRef .tc main_v3)) (X (Proc.devRef .tc main_v7)) := by
  after_results_simp <;> rfl

/-- The per-edge normalisation. -/
theorem b3_norm (c : Dev nD) : W3 m ρ c (Proc.devRef .tc main_v30)
    = normL (rowL (m ((c : Thread nD τ).loc main_arg1))) (colL (m ((c : Thread nD τ).loc main_arg1))) := by
  show after hostOps0_2 (after hostOps0_1 (after hostOps0 (W0 m ρ c))) (Proc.devRef .tc main_v30) = _
  rw [s2_norm, s1_where, s1_rows, s1_cols, s0_pos, s0_isqrt, s0_zero, s0_rows, s0_cols]
  exact (Cert.ReferenceIdeal.Chain.normOf_eq _ _).symm

/-! ## After the first launch -/

theorem b4_prod (c : Dev nD) : W4 m ρ c (Proc.devRef .tc main_v31)
    = matProd16 (W3 m ρ c (Proc.devRef .tc main_arg0)) (W3 m ρ c (Proc.devRef .tc main_arg2)) :=
  (W4_arr m ρ c 2).trans (Region0.final (V3 m ρ) c)

/-! ## After the fourth host stretch -/

theorem b5_agg (c : Dev nD) : W5 m ρ c (Proc.devRef .tc main_v44)
    = agg16 (W4 m ρ c (Proc.devRef .tc main_v3)) (W4 m ρ c (Proc.devRef .tc main_v7)) (W4 m ρ c (Proc.devRef .tc main_v30))
        (W4 m ρ c (Proc.devRef .tc main_v31)) := by
  show after hostOps1 (W4 m ρ c) (Proc.devRef .tc main_v44) = _
  after_results_simp <;> rfl
theorem b5_bias (c : Dev nD) : W5 m ρ c (Proc.devRef .tc main_v45)
    = shapeCast S1x16 (W4 m ρ c (Proc.devRef .tc main_arg3)) shapeCasts_S16_S1x16 := by
  show after hostOps1 (W4 m ρ c) (Proc.devRef .tc main_v45) = _
  after_results_simp <;> rfl
theorem b5_keep (c : Dev nD) (b : Ref sig .tc) (hb : b = main_v3 ∨ b = main_v7 ∨ b = main_v30 ∨ b = main_arg4 ∨ b = main_arg5) :
    W5 m ρ c (Proc.devRef .tc b) = W4 m ρ c (Proc.devRef .tc b) := by
  rcases hb with rfl | rfl | rfl | rfl | rfl <;>
    (show after hostOps1 (W4 m ρ c) (Proc.devRef .tc _) = _; after_results_simp)

/-! ## After the second and third launches -/

theorem b6_relu (c : Dev nD) : W6 m ρ c (Proc.devRef .tc main_v46)
    = Region1.biasReluRow (W5 m ρ c (Proc.devRef .tc main_v44)) (W5 m ρ c (Proc.devRef .tc main_v45)) :=
  (W6_arr m ρ c 2).trans (Region1.final (V5 m ρ) c)

theorem b7_prod (c : Dev nD) : W7 m ρ c (Proc.devRef .tc main_v47)
    = matProd2 (W6 m ρ c (Proc.devRef .tc main_v46)) (W6 m ρ c (Proc.devRef .tc main_arg4)) :=
  (W7_arr m ρ c 2).trans (Region2.final (V6 m ρ) c)

/-! ## After the fifth host stretch and the fourth launch -/

theorem b8_agg (c : Dev nD) : W8 m ρ c (Proc.devRef .tc main_v60)
    = agg2 (W7 m ρ c (Proc.devRef .tc main_v3)) (W7 m ρ c (Proc.devRef .tc main_v7)) (W7 m ρ c (Proc.devRef .tc main_v30))
        (W7 m ρ c (Proc.devRef .tc main_v47)) := by
  show after hostOps3 (W7 m ρ c) (Proc.devRef .tc main_v60) = _
  after_results_simp <;> rfl
theorem b8_bias (c : Dev nD) : W8 m ρ c (Proc.devRef .tc main_v61)
    = shapeCast S1x2 (W7 m ρ c (Proc.devRef .tc main_arg5)) shapeCasts_S2_S1x2 := by
  show after hostOps3 (W7 m ρ c) (Proc.devRef .tc main_v61) = _
  after_results_simp <;> rfl

theorem b9_out (c : Dev nD) : W9 m ρ c (Proc.devRef .tc main_v62)
    = Region3.biasLogSoftmaxRow (W8 m ρ c (Proc.devRef .tc main_v60)) (W8 m ρ c (Proc.devRef .tc main_v61)) :=
  (W9_arr m ρ c 2).trans (Region3.final (V8 m ρ) c)

/-! ## What is kept across the launches -/

theorem keep34 (c : Dev nD) (b : Ref sig .tc) (hb : ∀ w, Pipeline.arrRef spec0 w ≠ b) :
    W4 m ρ c (Proc.devRef .tc b) = W3 m ρ c (Proc.devRef .tc b) := W4_of_ne m ρ c b hb
theorem keep56 (c : Dev nD) (b : Ref sig .tc) (hb : ∀ w, Pipeline.arrRef spec1 w ≠ b) :
    W6 m ρ c (Proc.devRef .tc b) = W5 m ρ c (Proc.devRef .tc b) := W6_of_ne m ρ c b hb
theorem keep67 (c : Dev nD) (b : Ref sig .tc) (hb : ∀ w, Pipeline.arrRef spec2 w ≠ b) :
    W7 m ρ c (Proc.devRef .tc b) = W6 m ρ c (Proc.devRef .tc b) := W7_of_ne m ρ c b hb

/-- A buffer among the node lists, the normalisation and the last two arguments, after the third launch, is what it
    was after the first three host stretches. -/
theorem keep37 (c : Dev nD) (b : Ref sig .tc) (hb : b = main_v3 ∨ b = main_v7 ∨ b = main_v30 ∨ b = main_arg5) :
    W7 m ρ c (Proc.devRef .tc b) = W3 m ρ c (Proc.devRef .tc b) := by
  rcases hb with rfl | rfl | rfl | rfl <;>
    exact (keep67 m ρ c _ (by decide)).trans ((keep56 m ρ c _ (by decide)).trans
      ((b5_keep m ρ c _ (by simp)).trans (keep34 m ρ c _ (by decide))))

/-! ## The bias as a row -/

/-- The rectifier stage with the bias given as the one-row cast of a vector is the specification's. -/
theorem biasReluRow_cast (a : FVec Ideal S100000x16 .f32) (b : FVec Ideal S16 .f32) :
    Region1.biasReluRow a (shapeCast S1x16 b shapeCasts_S16_S1x16) = biasRelu a b := by
  funext i
  unfold Region1.biasReluRow biasRelu
  exact congrArg (fun z => max (a i + z) _) (shapeCast_a_1a_apply b shapeCasts_S16_S1x16 0 ⟨(i 1).val, (i 1).isLt⟩)

/-- The log-softmax stage with the bias given as the one-row cast of a vector is the specification's. -/
theorem biasLogSoftmaxRow_cast (a : FVec Ideal S100000x2 .f32) (b : FVec Ideal S2 .f32) :
    Region3.biasLogSoftmaxRow a (shapeCast S1x2 b shapeCasts_S2_S1x2) = biasLogSoftmax a b := by
  have el : ∀ (i : S100000x2.Idx) (q : Fin 2), Region3.logitsRow a (shapeCast S1x2 b shapeCasts_S2_S1x2) i q = logits a b i q := fun i q =>
    congrArg (a (rowAt i q) + ·) (shapeCast_a_1a_apply b shapeCasts_S2_S1x2 0 q)
  funext i
  unfold Region3.biasLogSoftmaxRow biasLogSoftmax
  have eM : Region3.rowMaxRow a (shapeCast S1x2 b shapeCasts_S2_S1x2) i = rowMax a b i :=
    congrArg (fun f => (Finset.univ : Finset (Fin 2)).fold max (Ideal.ofBits .f32 0xFF800000#32) f) (funext (el i))
  rw [eM, el i]
  simp only [el i]

/-! ## The whole -/

/-- The result buffer at the last boundary, as one function of the six arguments. -/
theorem result_eq (c : Dev nD) : W9 m ρ c (Proc.devRef .tc main_v62)
    = biasLogSoftmax
        (agg2 (rowL (m ((c : Thread nD τ).loc main_arg1))) (colL (m ((c : Thread nD τ).loc main_arg1)))
          (normL (rowL (m ((c : Thread nD τ).loc main_arg1))) (colL (m ((c : Thread nD τ).loc main_arg1))))
          (matProd2
            (biasRelu
              (agg16 (rowL (m ((c : Thread nD τ).loc main_arg1))) (colL (m ((c : Thread nD τ).loc main_arg1)))
                (normL (rowL (m ((c : Thread nD τ).loc main_arg1))) (colL (m ((c : Thread nD τ).loc main_arg1))))
                (matProd16 (m ((c : Thread nD τ).loc main_arg0)) (m ((c : Thread nD τ).loc main_arg2))))
              (m ((c : Thread nD τ).loc main_arg3)))
            (m ((c : Thread nD τ).loc main_arg4))))
        (m ((c : Thread nD τ).loc main_arg5)) := by
  rw [b9_out, b8_agg, b8_bias, b7_prod, b6_relu, b5_agg, b5_bias, b4_prod]
  rw [keep37 m ρ c main_v3 (by simp), keep37 m ρ c main_v7 (by simp), keep37 m ρ c main_v30 (by simp), keep37 m ρ c main_arg5 (by simp)]
  rw [keep56 m ρ c main_arg4 (by decide), b5_keep m ρ c main_arg4 (by simp), keep34 m ρ c main_arg4 (by decide)]
  rw [keep34 m ρ c main_v3 (by decide), keep34 m ρ c main_v7 (by decide), keep34 m ρ c main_v30 (by decide), keep34 m ρ c main_arg3 (by decide)]
  rw [b3_rows, b3_cols, b3_norm, b3_arg0, b3_arg2, b3_arg3, b3_arg4, b3_arg5]
  rw [biasReluRow_cast, biasLogSoftmaxRow_cast]

end Cert.KernelIdeal.Whole

end
-- ==== Proof.lean ====
/-
  A two-layer graph convolution with a rectifier between the layers and the logarithm of the softmax at the end:
  the tiled kernel program against the plain host program, on the extended reals.

  Both programs compute, from the features x, the edge list, and the two layers' weights and biases,

      logsoftmax ( A ( relu ( A (x · W1) + b1 ) · W2 ) + b2 )

  where A gathers a node array's rows at the edges' column nodes, scales each by the edge's normalisation and adds
  them up at the edges' row nodes. The node lists, the normalisation and A are host operations in both programs,
  with the same text: they are carried as functions and never opened. The programs differ in the other four stages:
  the kernel computes each in a launch that walks the 100000 rows in 20 blocks of 5000, the reference in host
  operations on whole arrays.

    * A product x · W: the kernel multiplies a block of rows, cast to a narrower float format, into a zero
      accumulator; the host contracts the whole arrays. On the extended reals a change of format is the identity
      and both are the sum over the contracted index of the products, row by row.
    * Bias and rectifier: max (a + b) 0 entry by entry in both, the bias laid along the rows.
    * Bias and log-softmax: with y the row's two logits and M their maximum, both compute
      (y_j − M) − log Σ_q exp (y_q − M); the reference takes the maximum once more against −∞ and starts its sum
      from 0, neither of which changes a value.

  No law used needs a finite input, so the precondition is never opened. The three frame claims are the generated
  frame certificates (the reference's is its run with the result dropped); the idealization rewrote nothing, so
  there is nothing to preserve.
-/
import proofs.«156108_j35880156790911_1_alg».proof.Defs
import proofs.«156108_j35880156790911_1_alg».proof.Proof.Gen.Kernel
import proofs.«156108_j35880156790911_1_alg».proof.Proof.Gen.Kernel.Frame
import proofs.«156108_j35880156790911_1_alg».proof.Proof.Gen.KernelIdeal
import proofs.«156108_j35880156790911_1_alg».proof.Proof.Gen.KernelIdeal.Frame
import proofs.«156108_j35880156790911_1_alg».proof.Proof.Gen.ReferenceIdeal
import proofs.«156108_j35880156790911_1_alg».proof.Proof.Gen.Pre_finite_inputs
import proofs.«156108_j35880156790911_1_alg».proof.Proof.RefStages
import proofs.«156108_j35880156790911_1_alg».proof.Proof.RefValue
import proofs.«156108_j35880156790911_1_alg».proof.Proof.KernelRun
import proofs.«156108_j35880156790911_1_alg».proof.Proof.KernelValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- The idealized kernel program runs and leaves its arguments as they were. -/
theorem frame_kernelIdeal : Cert.frame_KernelIdeal := fun m ρ _ => Cert.KernelIdeal.Gen.frame m ρ

/-- The idealized reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- From memories that agree on the six arguments both idealized programs end with the same result array: the
    kernel's last launch leaves the staged function of the arguments with the four tiled stages as whole-array
    functions; the reference's run ends at the same staged function with those four stages as host operations, and
    stage by stage the host operation is the whole-array function. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Whole.result_eq m ρ c), (h c).2⟩) (Cert.KernelIdeal.Result.run_result m ρ), ?_⟩
  refine (θ_run Cert.ReferenceIdeal.defs _ _).mono (fun _ h c => ⟨(h c).1.trans ?_, (h c).2⟩)
    (Cert.ReferenceIdeal.Stages.run (F := Ideal) m' ρ')
  unfold Cert.ReferenceIdeal.Chain.whole
  rw [(hagree c).1, (hagree c).2.1, (hagree c).2.2.1, (hagree c).2.2.2.1, (hagree c).2.2.2.2.1, (hagree c).2.2.2.2.2]
  rw [Cert.ReferenceIdeal.RefValue.product16_eq, Cert.ReferenceIdeal.RefValue.biasRectify_eq,
    Cert.ReferenceIdeal.RefValue.product2_eq, Cert.ReferenceIdeal.RefValue.biasLogSoftmax_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
